-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32x64 .f32) (main_arg8 : FVec F S32 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S64x128 .f32) (main_arg5 : FVec F S64 .f32) (main_arg6 : FVec F S32x64 .f32) (main_arg7 : FVec F S32x64 .f32) (main_arg8 : FVec F S32 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_v33

def fn {F : FTy → Type} [FloatOps F] (main_arg0 : FVec F S8192x128 .f32) (main_arg1 : FVec F S8192x8192 .f32) (main_arg2 : FVec F S8192x8192 .f32) (main_arg3 : FVec F S64x128 .f32) (main_arg4 : FVec F S64x128 .f32) (main_arg5 : FVec F S64 .f32) (main_arg6 : FVec F S32x64 .f32) (main_arg7 : FVec F S32x64 .f32) (main_arg8 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1x32 : Shape := ⟨2, ![1, 32]⟩
abbrev S8192x64 : Shape := ⟨2, ![8192, 64]⟩
abbrev S1024x128 : Shape := ⟨2, ![1024, 128]⟩
abbrev S1024x64 : Shape := ⟨2, ![1024, 64]⟩
abbrev S8192x32 : Shape := ⟨2, ![8192, 32]⟩
abbrev S256x8192 : Shape := ⟨2, ![256, 8192]⟩
abbrev S256x32 : Shape := ⟨2, ![256, 32]⟩
abbrev S256x64 : Shape := ⟨2, ![256, 64]⟩

abbrev nBuf : Space → Nat
  | .hbm => 17
  | .vmem => 35
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S64x128, .f32⟩
  | .hbm, ⟨4, _⟩ => ⟨S64x128, .f32⟩
  | .hbm, ⟨5, _⟩ => ⟨S64, .f32⟩
  | .hbm, ⟨6, _⟩ => ⟨S32x64, .f32⟩
  | .hbm, ⟨7, _⟩ => ⟨S32x64, .f32⟩
  | .hbm, ⟨8, _⟩ => ⟨S32, .f32⟩
  | .hbm, ⟨9, _⟩ => ⟨S1x64, .f32⟩
  | .hbm, ⟨10, _⟩ => ⟨S1x32, .f32⟩
  | .hbm, ⟨11, _⟩ => ⟨S8192x64, .f32⟩
  | .hbm, ⟨12, _⟩ => ⟨S8192x64, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S64x128, .f32⟩
  | .local _ .vmem, ⟨3, _⟩ => ⟨S64x128, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S256x8192, .f32⟩
  | .local _ .vmem, ⟨9, _⟩ => ⟨S256x8192, .f32⟩
  | .local _ .vmem, ⟨10, _⟩ => ⟨S256x8192, .f32⟩
  | .local _ .vmem, ⟨11, _⟩ => ⟨S256x8192, .f32⟩
  | .local _ .vmem, ⟨12, _⟩ => ⟨S8192x64, .f32⟩
  | .local _ .vmem, ⟨13, _⟩ => ⟨S8192x64, .f32⟩
  | .local _ .vmem, ⟨14, _⟩ => ⟨S1x64, .f32⟩
  | .local _ .vmem, ⟨15, _⟩ => ⟨S32x64, .f32⟩
  | .local _ .vmem, ⟨16, _⟩ => ⟨S32x64, .f32⟩
  | .local _ .vmem, ⟨17, _⟩ => ⟨S256x32, .f32⟩
  | .local _ .vmem, ⟨18, _⟩ => ⟨S256x32, .f32⟩
  | .local _ .vmem, ⟨19, _⟩ => ⟨S256x32, .f32⟩
  | .local _ .vmem, ⟨20, _⟩ => ⟨S256x32, .f32⟩
  | .local _ .vmem, ⟨21, _⟩ => ⟨S256x8192, .f32⟩
  | .local _ .vmem, ⟨22, _⟩ => ⟨S256x8192, .f32⟩
  | .local _ .vmem, ⟨23, _⟩ => ⟨S256x8192, .f32⟩
  | .local _ .vmem, ⟨24, _⟩ => ⟨S256x8192, .f32⟩
  | .local _ .vmem, ⟨25, _⟩ => ⟨S8192x32, .f32⟩
  | .local _ .vmem, ⟨26, _⟩ => ⟨S8192x32, .f32⟩
  | .local _ .vmem, ⟨27, _⟩ => ⟨S1x32, .f32⟩
  | .local _ .vmem, ⟨28, _⟩ => ⟨S256x32, .f32⟩
  | .local _ .vmem, ⟨29, _⟩ => ⟨S256x32, .f32⟩
  | .local _ .vmem, ⟨30, _⟩ => ⟨S256x32, .f32⟩
  | .local _ .vmem, ⟨31, _⟩ => ⟨S256x32, .f32⟩
  | .local _ .vmem, ⟨32, _⟩ => ⟨S8192x32, .f32⟩
  | .local _ .vmem, ⟨33, _⟩ => ⟨S256x8192, .f32⟩
  | .local _ .vmem, ⟨34, _⟩ => ⟨S256x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S64_S1x64 : S64.ShapeCasts S1x64
  shapeCasts_S32_S1x32 : S32.ShapeCasts S1x32
  inb_S1024x128_S1024x128_0_0 : ∀ a, (![0, 0] : Fin 2 → Nat) a + S1024x128.size a ≤ S1024x128.size a
  h_S1024x128 : 0 < S1024x128.numel
  inb_S64x128_S64x128_0_0 : ∀ a, (![0, 0] : Fin 2 → Nat) a + S64x128.size a ≤ S64x128.size a
  h_S64x128 : 0 < S64x128.numel
  inb_S1024x64_S1024x64_0_0 : ∀ a, (![0, 0] : Fin 2 → Nat) a + S1024x64.size a ≤ S1024x64.size a
  h_S1024x64 : 0 < S1024x64.numel
  inb_S256x8192_S256x8192_0_0 : ∀ a, (![0, 0] : Fin 2 → Nat) a + S256x8192.size a ≤ S256x8192.size a
  h_S256x8192 : 0 < S256x8192.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S32x64_S32x64_0_0 : ∀ a, (![0, 0] : Fin 2 → Nat) a + S32x64.size a ≤ S32x64.size a
  h_S32x64 : 0 < S32x64.numel
  inb_S256x32_S256x32_0_0 : ∀ a, (![0, 0] : Fin 2 → Nat) a + S256x32.size a ≤ S256x32.size a
  h_S256x32 : 0 < S256x32.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  shapeCasts_S256x32_S256x32 : S256x32.ShapeCasts S256x32
  dot_S1024x128_S64x128_S1024x64_1_1_0_0_n_n_wf : DotDims.WF S1024x128 S64x128 S1024x64 [1] [1] [0] [0] [] []
  dot_S256x8192_S8192x64_S256x64_1_0_0_1_n_n_wf : DotDims.WF S256x8192 S8192x64 S256x64 [1] [0] [0] [1] [] []
  dot_S256x64_S32x64_S256x32_1_1_0_0_n_n_wf : DotDims.WF S256x64 S32x64 S256x32 [1] [1] [0] [0] [] []
  dot_S256x8192_S8192x32_S256x32_1_0_0_1_n_n_wf : DotDims.WF S256x8192 S8192x32 S256x32 [1] [0] [0] [1] [] []
  dot_S256x32_S8192x32_S256x8192_1_1_0_0_n_n_wf : DotDims.WF S256x32 S8192x32 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S8192x8192.size a
  hwx1_1 : ∀ i : grid1.Coords, EltTy.bits .f32 = 32 ∨ (Rect.block (s := S8192x8192) S256x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .f32 = 32 ∨ (Rect.block (s := S8192x64) S8192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S8192x64.size a
  hwx1_3 : ∀ i : grid1.Coords, EltTy.bits .f32 = 32 ∨ (Rect.block (s := S8192x64) S8192x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x64.size a ≤ S32x64.size a
  hwx1_6 : ∀ i : grid1.Coords, EltTy.bits .f32 = 32 ∨ (Rect.block (s := S32x64) S32x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x32.size a ≤ S8192x32.size a
  hwx1_7 : ∀ i : grid1.Coords, EltTy.bits .f32 = 32 ∨ (Rect.block (s := S8192x32) S256x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x32.size a ≤ S8192x32.size a
  hwx1_8 : ∀ i : grid1.Coords, EltTy.bits .f32 = 32 ∨ (Rect.block (s := S8192x32) S256x32.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x8192.size a ≤ S8192x8192.size a
  hwx2_1 : ∀ i : grid2.Coords, EltTy.bits .f32 = 32 ∨ (Rect.block (s := S8192x8192) S256x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x32.size a ≤ S8192x32.size a
  hwx2_2 : ∀ i : grid2.Coords, EltTy.bits .f32 = 32 ∨ (Rect.block (s := S8192x32) S8192x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x32.size a ≤ S8192x32.size a
  hwx2_3 : ∀ i : grid2.Coords, EltTy.bits .f32 = 32 ∨ (Rect.block (s := S8192x32) S8192x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x32.size a ≤ S8192x32.size a
  hwx2_5 : ∀ i : grid2.Coords, EltTy.bits .f32 = 32 ∨ (Rect.block (s := S8192x32) S256x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x32.size a ≤ S8192x32.size a
  hwx3_0 : ∀ i : grid3.Coords, EltTy.bits .f32 = 32 ∨ (Rect.block (s := S8192x32) S256x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x32.size a ≤ S8192x32.size a
  hwx3_1 : ∀ i : grid3.Coords, EltTy.bits .f32 = 32 ∨ (Rect.block (s := S8192x32) S8192x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x8192.size a ≤ S8192x8192.size a
  hwx3_2 : ∀ i : grid3.Coords, EltTy.bits .f32 = 32 ∨ (Rect.block (s := S8192x8192) S256x8192.size (cc3_transform_2 i) (hinb3_2 i)).WholeWords (EltTy.packing .f32)

variable [Facts₀]

def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x64_S32x64_S256x32_1_1_0_0_n_n : DotDims S256x64 S32x64 S256x32 where
  lhsContracting := [1]
  rhsContracting := [1]
  lhsNonContracting := [0]
  rhsNonContracting := [0]
  lhsBatch := []
  rhsBatch := []
  wf := dot_S256x64_S32x64_S256x32_1_1_0_0_n_n_wf
def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x32_S8192x32_S256x8192_1_1_0_0_n_n : DotDims S256x32 S8192x32 S256x8192 where
  lhsContracting := [1]
  rhsContracting := [1]
  lhsNonContracting := [0]
  rhsNonContracting := [0]
  lhsBatch := []
  rhsBatch := []
  wf := dot_S256x32_S8192x32_S256x8192_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S8192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S32x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3_0) S256x32.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v3_1) S256x32.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg1) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S256x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S8192x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S8192x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S256x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v4) S256x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S8192x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S256x8192.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S32x64 : Shape := ⟨2, ![32, 64]⟩
abbrev S32 : Shape := ⟨1, ![32]⟩
abbrev S128x64 : Shape := ⟨2, ![128, 64]⟩
abbrev S8192x64 : Shape := ⟨2, ![8192, 64]⟩
abbrev S1x64 : Shape := ⟨2, ![1, 64]⟩
abbrev S_ : Shape := ⟨0, ![]⟩
abbrev S64x32 : Shape := ⟨2, ![64, 32]⟩
abbrev S8192x32 : Shape := ⟨2, ![8192, 32]⟩
abbrev S1x32 : Shape := ⟨2, ![1, 32]⟩
abbrev S32x8192 : Shape := ⟨2, ![32, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S64x128, .f32⟩
  | .hbm, ⟨4, _⟩ => ⟨S64x128, .f32⟩
  | .hbm, ⟨5, _⟩ => ⟨S64, .f32⟩
  | .hbm, ⟨6, _⟩ => ⟨S32x64, .f32⟩
  | .hbm, ⟨7, _⟩ => ⟨S32x64, .f32⟩
  | .hbm, ⟨8, _⟩ => ⟨S32, .f32⟩
  | .hbm, ⟨9, _⟩ => ⟨S8192x128, .f32⟩
  | .hbm, ⟨10, _⟩ => ⟨S8192x128, .f32⟩
  | .hbm, ⟨11, _⟩ => ⟨S128x64, .f32⟩
  | .hbm, ⟨12, _⟩ => ⟨S8192x64, .f32⟩
  | .hbm, ⟨13, _⟩ => ⟨S128x64, .f32⟩
  | .hbm, ⟨14, _⟩ => ⟨S8192x64, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S_, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S64x32, .f32⟩
  | .hbm, ⟨25, _⟩ => ⟨S8192x32, .f32⟩
  | .hbm, ⟨26, _⟩ => ⟨S64x32, .f32⟩
  | .hbm, ⟨27, _⟩ => ⟨S8192x32, .f32⟩
  | .hbm, ⟨28, _⟩ => ⟨S8192x32, .f32⟩
  | .hbm, ⟨29, _⟩ => ⟨S1x32, .f32⟩
  | .hbm, ⟨30, _⟩ => ⟨S8192x32, .f32⟩
  | .hbm, ⟨31, _⟩ => ⟨S8192x32, .f32⟩
  | .hbm, ⟨32, _⟩ => ⟨S32x8192, .f32⟩
  | .hbm, ⟨33, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S32x64_S64x32_1_0 : S32x64.Transposes [1, 0] S64x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S8192x32_S32x8192_1_0 : S8192x32.Transposes [1, 0] S32x8192
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []
  dot_S8192x32_S32x8192_S8192x8192_1_0_0_1_n_n_wf : DotDims.WF S8192x32 S32x8192 S8192x8192 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.K.R0.lean ====
/-
  Pallas call 0 of the program, one grid point at a time, for any contents `V` the TensorCore's
  buffers hold when the call is entered.

  Every window's block is moved whole: the body loads each input block entire, computes, and stores
  each output block entire, so what the body leaves in an output window's buffer is one function
  (`out0_w`) of the input blocks at that point, and every input buffer is left as found.  The
  proof data `dat0` records exactly that, and `body_obligation0` is the statement that the body,
  run on the buffers the pipeline hands it at a point, ends with them so.
-/
import proofs.«181728_g36885179138300_cont_8to1_b_1650_11_alg».proof.Proof.Gen.Kernel.Launch
import proofs.«181728_g36885179138300_cont_8to1_b_1650_11_alg».proof.Proof.Gen.Kernel.Skeleton
import proofs.«181728_g36885179138300_cont_8to1_b_1650_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the pipeline fetched it there or kept it
    from the point before (its block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds its block at every point, whether the pipeline fetched it there or kept it
    from the point before (its block index has then not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds its block at every point, whether the pipeline fetched it there or kept it
    from the point before (its block index has then not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output buffer -/

/-- Output window 3's buffer after the body: its one store, of the whole block. -/
def out0_3 (x0 : Vec F S1024x128 .f32) (x1 : Vec F S64x128 .f32) : Vec F S1024x64 .f32 :=
  View.canon [⟨(Rect.unit (s := S1024x64) ![0, 0] S1024x64.size inb_S1024x64_S1024x64_0_0), k0_pay1 (View.ld x0 (Rect.unit (s := S1024x128) ![0, 0] S1024x128.size inb_S1024x128_S1024x128_0_0)) (View.ld x1 (Rect.unit (s := S64x128) ![0, 0] S64x128.size inb_S64x128_S64x128_0_0))⟩]

/-- That store covers the buffer. -/
theorem cover0_3 (p0 : Vec F S1024x64 .f32) (y : S1024x64.Idx) :
    ∃ pc ∈ ([⟨(Rect.unit (s := S1024x64) ![0, 0] S1024x64.size inb_S1024x64_S1024x64_0_0), p0⟩] : List (View.Piece (Elt F) S1024x64 .f32)), y ∈ pc.1.set :=
  View.cover_of_tiled [⟨(Rect.unit (s := S1024x64) ![0, 0] S1024x64.size inb_S1024x64_S1024x64_0_0), p0⟩] S1024x64.size (by rfl) y

/-- Output window 4's buffer after the body: its one store, of the whole block. -/
def out0_4 (x0 : Vec F S1024x128 .f32) (x2 : Vec F S64x128 .f32) : Vec F S1024x64 .f32 :=
  View.canon [⟨(Rect.unit (s := S1024x64) ![0, 0] S1024x64.size inb_S1024x64_S1024x64_0_0), k0_pay2 (View.ld x0 (Rect.unit (s := S1024x128) ![0, 0] S1024x128.size inb_S1024x128_S1024x128_0_0)) (View.ld x2 (Rect.unit (s := S64x128) ![0, 0] S64x128.size inb_S64x128_S64x128_0_0))⟩]

/-- That store covers the buffer. -/
theorem cover0_4 (p0 : Vec F S1024x64 .f32) (y : S1024x64.Idx) :
    ∃ pc ∈ ([⟨(Rect.unit (s := S1024x64) ![0, 0] S1024x64.size inb_S1024x64_S1024x64_0_0), p0⟩] : List (View.Piece (Elt F) S1024x64 .f32)), y ∈ pc.1.set :=
  View.cover_of_tiled [⟨(Rect.unit (s := S1024x64) ![0, 0] S1024x64.size inb_S1024x64_S1024x64_0_0), p0⟩] S1024x64.size (by rfl) y

/-! ## The body's triple -/

set_option maxHeartbeats 4000000 in
/-- The body on whole buffers — the inputs' at contents `xW`, the outputs' at anything — ends with the inputs' as they
    were and each output's at `out0_w` of the inputs'. -/
theorem sound_kernel0 (c : Dev nD) (E : Set ℕ) (i : grid0.Coords) (arg0 : Memref sig .tc .vmem S1024x128 .f32) (harg0 : arg0.IsWhole) (arg1 : Memref sig .tc .vmem S64x128 .f32) (harg1 : arg1.IsWhole) (arg2 : Memref sig .tc .vmem S64x128 .f32) (harg2 : arg2.IsWhole) (arg3 : Memref sig .tc .vmem S1024x64 .f32) (harg3 : arg3.IsWhole) (arg4 : Memref sig .tc .vmem S1024x64 .f32) (harg4 : arg4.IsWhole)
    (x0 : Vec F S1024x128 .f32) (x1 : Vec F S64x128 .f32) (x2 : Vec F S64x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1) ∗ owns (c : Thread nD τ) arg4 fullShare (out0_4 x0 x2)) -∗ K ⟨⟩))
      ⊢ wp frame (wpE (defs₀ (F := F)) Variants.none c none) E (cc0__proj1_body i arg0 harg0 arg1 harg1 arg2 harg2 arg3 harg3 arg4 harg4) K := by
  simp only [cc0__proj1_body_eq_skeleton]; unfold cc0__proj1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data -/

/-- The arrays as the call finds them; after the body at point `t` each input buffer at its block and each output
    buffer at `out0_w` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks, so `sound_kernel0` applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Pallas call 1 of the program, one grid point at a time, for any contents `V` the TensorCore's
  buffers hold when the call is entered.

  Every window's block is moved whole: the body loads each input block entire, computes, and stores
  each output block entire, so what the body leaves in an output window's buffer is one function
  (`out1_w`) of the input blocks at that point, and every input buffer is left as found.  The
  proof data `dat1` records exactly that, and `body_obligation1` is the statement that the body,
  run on the buffers the pipeline hands it at a point, ends with them so.
-/
import proofs.«181728_g36885179138300_cont_8to1_b_1650_11_alg».proof.Proof.Gen.Kernel.Launch
import proofs.«181728_g36885179138300_cont_8to1_b_1650_11_alg».proof.Proof.Gen.Kernel.Skeleton
import proofs.«181728_g36885179138300_cont_8to1_b_1650_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the pipeline fetched it there or kept it
    from the point before (its block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output buffer -/

/-- Output window 7's buffer after the body: its one store, of the whole block. -/
def out1_7 (x0 : Vec F S256x8192 .f32) (x1 : Vec F S256x8192 .f32) (x2 : Vec F S8192x64 .f32) (x3 : Vec F S8192x64 .f32) (x4 : Vec F S1x64 .f32) (x5 : Vec F S32x64 .f32) : Vec F S256x32 .f32 :=
  View.canon [⟨(Rect.unit (s := S256x32) ![0, 0] S256x32.size inb_S256x32_S256x32_0_0), k1_pay2 (View.ld x0 (Rect.unit (s := S256x8192) ![0, 0] S256x8192.size inb_S256x8192_S256x8192_0_0)) (View.ld x2 (Rect.unit (s := S8192x64) ![0, 0] S8192x64.size inb_S8192x64_S8192x64_0_0)) (View.ld x1 (Rect.unit (s := S256x8192) ![0, 0] S256x8192.size inb_S256x8192_S256x8192_0_0)) (View.ld x3 (Rect.unit (s := S8192x64) ![0, 0] S8192x64.size inb_S8192x64_S8192x64_0_0)) (View.ld x4 (Rect.unit (s := S1x64) ![0, 0] S1x64.size inb_S1x64_S1x64_0_0)) (View.ld x5 (Rect.unit (s := S32x64) ![0, 0] S32x64.size inb_S32x64_S32x64_0_0))⟩]

/-- That store covers the buffer. -/
theorem cover1_7 (p0 : Vec F S256x32 .f32) (y : S256x32.Idx) :
    ∃ pc ∈ ([⟨(Rect.unit (s := S256x32) ![0, 0] S256x32.size inb_S256x32_S256x32_0_0), p0⟩] : List (View.Piece (Elt F) S256x32 .f32)), y ∈ pc.1.set :=
  View.cover_of_tiled [⟨(Rect.unit (s := S256x32) ![0, 0] S256x32.size inb_S256x32_S256x32_0_0), p0⟩] S256x32.size (by rfl) y

/-- Output window 8's buffer after the body: its one store, of the whole block. -/
def out1_8 (x0 : Vec F S256x8192 .f32) (x1 : Vec F S256x8192 .f32) (x2 : Vec F S8192x64 .f32) (x3 : Vec F S8192x64 .f32) (x4 : Vec F S1x64 .f32) (x6 : Vec F S32x64 .f32) : Vec F S256x32 .f32 :=
  View.canon [⟨(Rect.unit (s := S256x32) ![0, 0] S256x32.size inb_S256x32_S256x32_0_0), k1_pay3 (View.ld x0 (Rect.unit (s := S256x8192) ![0, 0] S256x8192.size inb_S256x8192_S256x8192_0_0)) (View.ld x2 (Rect.unit (s := S8192x64) ![0, 0] S8192x64.size inb_S8192x64_S8192x64_0_0)) (View.ld x1 (Rect.unit (s := S256x8192) ![0, 0] S256x8192.size inb_S256x8192_S256x8192_0_0)) (View.ld x3 (Rect.unit (s := S8192x64) ![0, 0] S8192x64.size inb_S8192x64_S8192x64_0_0)) (View.ld x4 (Rect.unit (s := S1x64) ![0, 0] S1x64.size inb_S1x64_S1x64_0_0)) (View.ld x6 (Rect.unit (s := S32x64) ![0, 0] S32x64.size inb_S32x64_S32x64_0_0))⟩]

/-- That store covers the buffer. -/
theorem cover1_8 (p0 : Vec F S256x32 .f32) (y : S256x32.Idx) :
    ∃ pc ∈ ([⟨(Rect.unit (s := S256x32) ![0, 0] S256x32.size inb_S256x32_S256x32_0_0), p0⟩] : List (View.Piece (Elt F) S256x32 .f32)), y ∈ pc.1.set :=
  View.cover_of_tiled [⟨(Rect.unit (s := S256x32) ![0, 0] S256x32.size inb_S256x32_S256x32_0_0), p0⟩] S256x32.size (by rfl) y

/-! ## The body's triple -/

set_option maxHeartbeats 4000000 in
/-- The body on whole buffers — the inputs' at contents `xW`, the outputs' at anything — ends with the inputs' as they
    were and each output's at `out1_w` of the inputs'. -/
theorem sound_kernel1 (c : Dev nD) (E : Set ℕ) (i : grid1.Coords) (arg0 : Memref sig .tc .vmem S256x8192 .f32) (harg0 : arg0.IsWhole) (arg1 : Memref sig .tc .vmem S256x8192 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S1x64 .f32) (harg4 : arg4.IsWhole) (arg5 : Memref sig .tc .vmem S32x64 .f32) (harg5 : arg5.IsWhole) (arg6 : Memref sig .tc .vmem S32x64 .f32) (harg6 : arg6.IsWhole) (arg7 : Memref sig .tc .vmem S256x32 .f32) (harg7 : arg7.IsWhole) (arg8 : Memref sig .tc .vmem S256x32 .f32) (harg8 : arg8.IsWhole)
    (x0 : Vec F S256x8192 .f32) (x1 : Vec F S256x8192 .f32) (x2 : Vec F S8192x64 .f32) (x3 : Vec F S8192x64 .f32) (x4 : Vec F S1x64 .f32) (x5 : Vec F S32x64 .f32) (x6 : Vec F S32x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5) ∗ owns (c : Thread nD τ) arg8 fullShare (out1_8 x0 x1 x2 x3 x4 x6)) -∗ K ⟨⟩))
      ⊢ wp frame (wpE (defs₀ (F := F)) Variants.none c none) E (cc1__pass1_body i arg0 harg0 arg1 harg1 arg2 harg2 arg3 harg3 arg4 harg4 arg5 harg5 arg6 harg6 arg7 harg7 arg8 harg8) K := by
  simp only [cc1__pass1_body_eq_skeleton]; unfold cc1__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The proof data -/

/-- The arrays as the call finds them; after the body at point `t` each input buffer at its block and each output
    buffer at `out1_w` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' buffers hold their blocks, so `sound_kernel1` applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Pallas call 2 of the program, one grid point at a time, for any contents `V` the TensorCore's
  buffers hold when the call is entered.

  Every window's block is moved whole: the body loads each input block entire, computes, and stores
  each output block entire, so what the body leaves in an output window's buffer is one function
  (`out2_w`) of the input blocks at that point, and every input buffer is left as found.  The
  proof data `dat2` records exactly that, and `body_obligation2` is the statement that the body,
  run on the buffers the pipeline hands it at a point, ends with them so.
-/
import proofs.«181728_g36885179138300_cont_8to1_b_1650_11_alg».proof.Proof.Gen.Kernel.Launch
import proofs.«181728_g36885179138300_cont_8to1_b_1650_11_alg».proof.Proof.Gen.Kernel.Skeleton
import proofs.«181728_g36885179138300_cont_8to1_b_1650_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the pipeline fetched it there or kept it
    from the point before (its block index has then not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point, whether the pipeline fetched it there or kept it
    from the point before (its block index has then not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point, whether the pipeline fetched it there or kept it
    from the point before (its block index has then not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point, whether the pipeline fetched it there or kept it
    from the point before (its block index has then not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point, whether the pipeline fetched it there or kept it
    from the point before (its block index has then not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output buffer -/

/-- Output window 5's buffer after the body: its one store, of the whole block. -/
def out2_5 (x0 : Vec F S256x8192 .f32) (x1 : Vec F S256x8192 .f32) (x2 : Vec F S8192x32 .f32) (x3 : Vec F S8192x32 .f32) (x4 : Vec F S1x32 .f32) : Vec F S256x32 .f32 :=
  View.canon [⟨(Rect.unit (s := S256x32) ![0, 0] S256x32.size inb_S256x32_S256x32_0_0), k2_pay1 (View.ld x0 (Rect.unit (s := S256x8192) ![0, 0] S256x8192.size inb_S256x8192_S256x8192_0_0)) (View.ld x2 (Rect.unit (s := S8192x32) ![0, 0] S8192x32.size inb_S8192x32_S8192x32_0_0)) (View.ld x1 (Rect.unit (s := S256x8192) ![0, 0] S256x8192.size inb_S256x8192_S256x8192_0_0)) (View.ld x3 (Rect.unit (s := S8192x32) ![0, 0] S8192x32.size inb_S8192x32_S8192x32_0_0)) (View.ld x4 (Rect.unit (s := S1x32) ![0, 0] S1x32.size inb_S1x32_S1x32_0_0))⟩]

/-- That store covers the buffer. -/
theorem cover2_5 (p0 : Vec F S256x32 .f32) (y : S256x32.Idx) :
    ∃ pc ∈ ([⟨(Rect.unit (s := S256x32) ![0, 0] S256x32.size inb_S256x32_S256x32_0_0), p0⟩] : List (View.Piece (Elt F) S256x32 .f32)), y ∈ pc.1.set :=
  View.cover_of_tiled [⟨(Rect.unit (s := S256x32) ![0, 0] S256x32.size inb_S256x32_S256x32_0_0), p0⟩] S256x32.size (by rfl) y

/-! ## The body's triple -/

set_option maxHeartbeats 4000000 in
/-- The body on whole buffers — the inputs' at contents `xW`, the outputs' at anything — ends with the inputs' as they
    were and each output's at `out2_w` of the inputs'. -/
theorem sound_kernel2 (c : Dev nD) (E : Set ℕ) (i : grid2.Coords) (arg0 : Memref sig .tc .vmem S256x8192 .f32) (harg0 : arg0.IsWhole) (arg1 : Memref sig .tc .vmem S256x8192 .f32) (harg1 : arg1.IsWhole) (arg2 : Memref sig .tc .vmem S8192x32 .f32) (harg2 : arg2.IsWhole) (arg3 : Memref sig .tc .vmem S8192x32 .f32) (harg3 : arg3.IsWhole) (arg4 : Memref sig .tc .vmem S1x32 .f32) (harg4 : arg4.IsWhole) (arg5 : Memref sig .tc .vmem S256x32 .f32) (harg5 : arg5.IsWhole)
    (x0 : Vec F S256x8192 .f32) (x1 : Vec F S256x8192 .f32) (x2 : Vec F S8192x32 .f32) (x3 : Vec F S8192x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__pass2_body i arg0 harg0 arg1 harg1 arg2 harg2 arg3 harg3 arg4 harg4 arg5 harg5) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- The arrays as the call finds them; after the body at point `t` each input buffer at its block and each output
    buffer at `out2_w` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1000000 in
/-- The body at any point: the inputs' buffers hold their blocks, so `sound_kernel2` applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Pallas call 3 of the program, one grid point at a time, for any contents `V` the TensorCore's
  buffers hold when the call is entered.

  Every window's block is moved whole: the body loads each input block entire, computes, and stores
  each output block entire, so what the body leaves in an output window's buffer is one function
  (`out3_w`) of the input blocks at that point, and every input buffer is left as found.  The
  proof data `dat3` records exactly that, and `body_obligation3` is the statement that the body,
  run on the buffers the pipeline hands it at a point, ends with them so.
-/
import proofs.«181728_g36885179138300_cont_8to1_b_1650_11_alg».proof.Proof.Gen.Kernel.Launch
import proofs.«181728_g36885179138300_cont_8to1_b_1650_11_alg».proof.Proof.Gen.Kernel.Skeleton
import proofs.«181728_g36885179138300_cont_8to1_b_1650_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, whether the pipeline fetched it there or kept it
    from the point before (its block index has then not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's buffer holds its block at every point, whether the pipeline fetched it there or kept it
    from the point before (its block index has then not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output buffer -/

/-- Output window 2's buffer after the body: its one store, of the whole block. -/
def out3_2 (x0 : Vec F S256x32 .f32) (x1 : Vec F S8192x32 .f32) : Vec F S256x8192 .f32 :=
  View.canon [⟨(Rect.unit (s := S256x8192) ![0, 0] S256x8192.size inb_S256x8192_S256x8192_0_0), k3_pay1 (View.ld x0 (Rect.unit (s := S256x32) ![0, 0] S256x32.size inb_S256x32_S256x32_0_0)) (View.ld x1 (Rect.unit (s := S8192x32) ![0, 0] S8192x32.size inb_S8192x32_S8192x32_0_0))⟩]

/-- That store covers the buffer. -/
theorem cover3_2 (p0 : Vec F S256x8192 .f32) (y : S256x8192.Idx) :
    ∃ pc ∈ ([⟨(Rect.unit (s := S256x8192) ![0, 0] S256x8192.size inb_S256x8192_S256x8192_0_0), p0⟩] : List (View.Piece (Elt F) S256x8192 .f32)), y ∈ pc.1.set :=
  View.cover_of_tiled [⟨(Rect.unit (s := S256x8192) ![0, 0] S256x8192.size inb_S256x8192_S256x8192_0_0), p0⟩] S256x8192.size (by rfl) y

/-! ## The body's triple -/

set_option maxHeartbeats 4000000 in
/-- The body on whole buffers — the inputs' at contents `xW`, the outputs' at anything — ends with the inputs' as they
    were and each output's at `out3_w` of the inputs'. -/
theorem sound_kernel3 (c : Dev nD) (E : Set ℕ) (i : grid3.Coords) (arg0 : Memref sig .tc .vmem S256x32 .f32) (harg0 : arg0.IsWhole) (arg1 : Memref sig .tc .vmem S8192x32 .f32) (harg1 : arg1.IsWhole) (arg2 : Memref sig .tc .vmem S256x8192 .f32) (harg2 : arg2.IsWhole)
    (x0 : Vec F S256x32 .f32) (x1 : Vec F S8192x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__decode_body i arg0 harg0 arg1 harg1 arg2 harg2) K := by
  simp only [cc3__decode_body_eq_skeleton]; unfold cc3__decode_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The arrays as the call finds them; after the body at point `t` each input buffer at its block and each output
    buffer at `out3_w` of the input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in
/-- The body at any point: the inputs' buffers hold their blocks, so `sound_kernel3` applies; the invariant and what
    the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Shared3.lean ====
/-
  The last Pallas call reads the embedding array Z through TWO input windows: a row block of it and
  the whole of it.  One buffer cannot be held whole twice, so the buffer's full share is dealt in two
  halves, one to each window (reading needs only a share), and the halves are joined again when the
  call is left.  The output array is held outright.  `deal3` states both directions at once: the
  distinct buffers behind the call's arrays, each whole at the full share, are the call's windows'
  arrays at their shares, at the same contents.
-/
import proofs.«181728_g36885179138300_cont_8to1_b_1650_11_alg».proof.Proof.K.R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the call's three windows: the embedding array (twice) and the output. -/
theorem image_arr3 : Finset.univ.image (Pipeline.arrRef spec3) = {main_v4, main_v5} := by decide

theorem deal3 (c : Dev nD) (dat : Dat τ (Elt F) Unit ℕ (UR sig nD τ) ℕ cfg3 c)
    (hq0 : dat.q 0 = fullShare.left) (hq1 : dat.q 1 = fullShare.right)
    (G : (b : Ref sig .tc) → Buf (Elt F) ((c : Thread nD τ).loc b)) :
    (Pipeline.arrBufs spec3 c G : sProp 𝕄) ⊣⊢ dat.arrays (fun w => G (Pipeline.arrRef spec3 w)) := by
  unfold Pipeline.arrBufs Dat.arrays
  rw [bigSep_W3, image_arr3, bigSep_insert (by decide), bigSep_singleton]
  unfold Dat.share
  rw [if_neg (by decide : ¬ (cfg3.win 0).isOut = true), if_neg (by decide : ¬ (cfg3.win 1).isOut = true),
    if_pos (by decide : (cfg3.win 2).isOut = true), hq0, hq1,
    (arr_whole3 0).set_eq_univ, (arr_whole3 2).set_eq_univ]
  change iprop((((c : Thread nD τ).loc main_v4) ↦{fullShare} G main_v4) ∗ (((c : Thread nD τ).loc main_v5) ↦{fullShare} G main_v5)) ⊣⊢ _
  refine ⟨?_, ?_⟩
  · iintro ⟨H4, H5⟩
    ihave H := (pointsTo_share (PosShare.mem_left_op_right fullShare)).1 $$ H4
    icases H with ⟨Ha, Hb⟩
    isplitl [Ha]; · iexact Ha
    isplitl [Hb]; · iexact Hb
    iexact H5
  · iintro ⟨Ha, Hb, H5⟩
    isplitl [Ha Hb]
    · iapply (pointsTo_share (PosShare.mem_left_op_right fullShare)).2
      isplitl [Ha]; · iexact Ha
      iexact Hb
    iexact H5

end Cert.Kernel.Hand

end
-- ==== Proof.K.Run.lean ====
/-
  The whole program as a run of five segments — the two reshapes of the bias vectors, then the four
  Pallas calls in order — with the contents of every unscoped buffer named at each boundary:
  `W0` at launch, `W1` after the reshapes, `W2` … `W5` after each call.  Each call's arrays leave it at
  what its pipeline's write-backs make of them and every other buffer as it entered, so the fold can
  be read backwards: an array no call writes is at its launch contents at the end, and the two results
  are the last write-back folds of calls 2 and 3.  `run` is the statement that every weakly fair
  execution terminates, faulting nowhere, with every unscoped buffer at `W5`.
-/
import proofs.«181728_g36885179138300_cont_8to1_b_1650_11_alg».proof.Proof.K.R0
import proofs.«181728_g36885179138300_cont_8to1_b_1650_11_alg».proof.Proof.K.R1
import proofs.«181728_g36885179138300_cont_8to1_b_1650_11_alg».proof.Proof.K.R2
import proofs.«181728_g36885179138300_cont_8to1_b_1650_11_alg».proof.Proof.K.R3
import proofs.«181728_g36885179138300_cont_8to1_b_1650_11_alg».proof.Proof.K.Shared3
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- After Pallas call 0: its arrays at what the pipeline leaves (an input as entered, an output with every point's
    write-back folded in), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- A buffer that is no OUTPUT array of call 0 is left as entered: an input array is only read. -/
theorem W2_kept (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    rw [W2_arr, (dat0 (U1 m ρ) c).arrAt_in w hin _, A_eq0]
  · exact W2_of_ne m ρ c b fun w e => h ⟨w, e⟩

/-- After Pallas call 1: its arrays at what the pipeline leaves (an input as entered, an output with every point's
    write-back folded in), every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- A buffer that is no OUTPUT array of call 1 is left as entered: an input array is only read. -/
theorem W3_kept (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    rw [W3_arr, (dat1 (U2 m ρ) c).arrAt_in w hin _, A_eq1]
  · exact W3_of_ne m ρ c b fun w e => h ⟨w, e⟩

/-- After Pallas call 2: its arrays at what the pipeline leaves (an input as entered, an output with every point's
    write-back folded in), every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)
/-- A buffer that is no OUTPUT array of call 2 is left as entered: an input array is only read. -/
theorem W4_kept (c : Dev nD) (b : Ref sig .tc) (hb : ∀ w, (cfg2.win w).isOut = true → Pipeline.arrRef spec2 w ≠ b) :
    W4 m ρ c (Proc.devRef .tc b) = W3 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    rw [W4_arr, (dat2 (U3 m ρ) c).arrAt_in w hin _, A_eq2]
  · exact W4_of_ne m ρ c b fun w e => h ⟨w, e⟩

/-- After the last call: its output array at the write-back fold; the embedding array, which it only reads (through
    two windows), and every other buffer as entered. -/
def W5 (c : Dev nD) : Valuation τ sig (Elt F) :=
  Function.update (W4 m ρ c) main_v5 ((dat3 (U4 m ρ) c).arrAt 2 cfg3.N)
abbrev U5 : (c : Dev nD) → (b : Ref sig .tc) → Buf (Elt F) ((c : Thread nD τ).loc b) := fun c b => W5 m ρ c b
theorem W5_out (c : Dev nD) : W5 m ρ c (Proc.devRef .tc main_v5) = (dat3 (U4 m ρ) c).arrAt 2 cfg3.N := by
  unfold W5; exact Function.update_self ..
theorem W5_kept (c : Dev nD) (b : Ref sig .tc) (hb : b ≠ main_v5) : W5 m ρ c (Proc.devRef .tc b) = W4 m ρ c (Proc.devRef .tc b) := by
  unfold W5; exact Function.update_of_ne (StableHlo.devRef_ne_of_ne hb) ..
theorem hF3 (c : Dev nD) (w : Fin cfg3.W) : (dat3 (U4 m ρ) c).arrAt w cfg3.N = U5 m ρ c (Pipeline.arrRef spec3 w) := by
  match w with
  | ⟨0, _⟩ => exact ((dat3 (U4 m ρ) c).arrAt_in 0 rfl _).trans ((A_eq3 (U4 m ρ) c 0).trans (W5_kept m ρ c main_v4 (by decide)).symm)
  | ⟨1, _⟩ => exact ((dat3 (U4 m ρ) c).arrAt_in 1 rfl _).trans ((A_eq3 (U4 m ρ) c 1).trans (W5_kept m ρ c main_v4 (by decide)).symm)
  | ⟨2, _⟩ => exact (W5_out m ρ c).symm
theorem hrest3 (c : Dev nD) : ∀ b, b ∉ Finset.univ.image (Pipeline.arrRef spec3) → U5 m ρ c b = U4 m ρ c b :=
  fun b hb => W5_kept m ρ c b fun e => hb (Finset.mem_image.mpr ⟨2, Finset.mem_univ _, e.symm⟩)

/-! ## The proof data family and what rides along -/

abbrev adm : (p : Fin 4) → (pcfgs (F := F) p).Adm := fun p => (cfgs p).toPCfg_adm
/-- Every call's proof data, each at the contents its call is entered with. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U4 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- Neither reshape allocates a buffer. -/
theorem reshapes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- Pallas call 0 as a segment of the program: entered with every unscoped buffer at `W1`, left with them at
    `W2`.  Its arrays are taken out of the unscoped buffers at entry and put back, at what the write-backs leave,
    at exit; the generator register passes through the body's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the program: entered with every unscoped buffer at `W2`, left with them at
    `W3`.  Its arrays are taken out of the unscoped buffers at entry and put back, at what the write-backs leave,
    at exit; the generator register passes through the body's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment of the program: entered with every unscoped buffer at `W3`, left with them at
    `W4`.  Its arrays are taken out of the unscoped buffers at entry and put back, at what the write-backs leave,
    at exit; the generator register passes through the body's invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Entering the last call: the unscoped buffers are the distinct buffers behind its arrays and the rest; the
    embedding array's share is dealt to the two windows that read it. -/
theorem entry3 (c : Dev nD) :
    (StableHlo.held (c : Thread nD τ) (Pipeline.ucRefs τ sig) (W4 m ρ c) : sProp 𝕄)
      ⊢ iprop((dat3 (U4 m ρ) c).arrays (fun w => U4 m ρ c (Pipeline.arrRef spec3 w))
          ∗ Pipeline.unscopedRest (Ix := Unit) (Name := ℕ) (U := UR sig nD τ) (Lvl := ℕ) spec3 c (U4 m ρ c)) := by
  rw [← Pipeline.unscopedBufs_held c (W4 m ρ c), Pipeline.unscopedBufs_split₀ cfgs 3 (by decide) c (U4 m ρ c)]
  exact sep_mono (deal3 c _ rfl rfl _).1 .rfl

/-- Leaving it: the shares joined, the output array at its write-back fold, the rest untouched. -/
theorem exit3 (c : Dev nD) :
    iprop((dat3 (U4 m ρ) c).arrays (fun w => (dat3 (U4 m ρ) c).arrAt w cfg3.N)
          ∗ Pipeline.unscopedRest (Ix := Unit) (Name := ℕ) (U := UR sig nD τ) (Lvl := ℕ) spec3 c (U4 m ρ c))
      ⊢ (StableHlo.held (c : Thread nD τ) (Pipeline.ucRefs τ sig) (W5 m ρ c) : sProp 𝕄) := by
  rw [← Pipeline.unscopedBufs_held c (W5 m ρ c), Pipeline.unscopedBufs_split₀ cfgs 3 (by decide) c (U5 m ρ c)]
  refine sep_mono ?_ (Entails.of_eq ?_)
  · rw [show (fun w => (dat3 (U4 m ρ) c).arrAt w cfg3.N) = fun w => U5 m ρ c (Pipeline.arrRef spec3 w) from funext (hF3 m ρ c)]
    exact (deal3 c _ rfl rfl _).2
  · unfold Pipeline.unscopedRest
    exact bigSep_congr fun b hb => by rw [hrest3 m ρ c b (Finset.mem_sdiff.mp hb).2]

set_option backward.isDefEq.respectTransparency.types false in
/-- Pallas call 3 as a segment: entered at `W4`, left at `W5`. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (U4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U4 m ρ c)
  hentry c := by
    rw [Pipeline.ownSems0_none]
    iintro ⟨⟨Hub, Hp, HO⟩, -, -⟩
    ihave H := (entry3 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · have hjoin : iprop((pdats m ρ 3 c).arrays ((pdats m ρ 3 c).arrAt · cfg3.N)
            ∗ Pipeline.unscopedRest (Ix := Unit) (Name := ℕ) (U := UR sig nD τ) (Lvl := ℕ) spec3 c (U4 m ρ c))
            ⊢ (StableHlo.held (c : Thread nD τ) (Pipeline.ucRefs τ sig) (W5 m ρ c) : sProp 𝕄) := exit3 m ρ c
        iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub reshapes_fresh (W0 m ρ)),
    .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    ends with every unscoped buffer of every core at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Reading the fold backwards -/

/-- The reshapes write only the two bias rows. -/
theorem W1_kept (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- A buffer written by no reshape and no call ends at its launch contents. -/
theorem W5_launch (c : Dev nD) (b : Ref sig .tc) (hb : b ∉ ([main_v0, main_v1, main_v2_0, main_v2_1, main_v3_0, main_v3_1, main_v4, main_v5] : List (Ref sig .tc))) :
    W5 m ρ c (Proc.devRef .tc b) = m ((c : Thread nD τ).loc b) := by
  simp only [List.mem_cons, List.not_mem_nil, or_false, not_or] at hb
  obtain ⟨h0, h1, h20, h21, h30, h31, h4, h5⟩ := hb
  rw [W5_kept m ρ c b h5,
    W4_kept m ρ c b (fun w hw => by revert hw; revert w; intro w; fin_cases w <;> first | (intro hw; exact absurd hw (by decide)) | (intro _; exact Ne.symm h4)),
    W3_kept m ρ c b (fun w hw => by revert hw; revert w; intro w; fin_cases w <;> first | (intro hw; exact absurd hw (by decide)) | (intro _; exact Ne.symm h30) | (intro _; exact Ne.symm h31)),
    W2_kept m ρ c b (fun w hw => by revert hw; revert w; intro w; fin_cases w <;> first | (intro hw; exact absurd hw (by decide)) | (intro _; exact Ne.symm h20) | (intro _; exact Ne.symm h21)),
    W1_kept m ρ c b h0 h1]

end Cert.Kernel.Hand

end
-- ==== Proof.K.Frame.lean ====
/-
  The program's argument arrays end as launched: the reshapes write only the two bias rows and each
  Pallas call writes only its own output arrays, so none of the nine arguments is ever written.
-/
import proofs.«181728_g36885179138300_cont_8to1_b_1650_11_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W5_launch m ρ c main_arg0 (by decide)),
      (h c _ (mem_uc main_arg1 (by decide))).trans (W5_launch m ρ c main_arg1 (by decide)),
      (h c _ (mem_uc main_arg2 (by decide))).trans (W5_launch m ρ c main_arg2 (by decide)),
      (h c _ (mem_uc main_arg3 (by decide))).trans (W5_launch m ρ c main_arg3 (by decide)),
      (h c _ (mem_uc main_arg4 (by decide))).trans (W5_launch m ρ c main_arg4 (by decide)),
      (h c _ (mem_uc main_arg5 (by decide))).trans (W5_launch m ρ c main_arg5 (by decide)),
      (h c _ (mem_uc main_arg6 (by decide))).trans (W5_launch m ρ c main_arg6 (by decide)),
      (h c _ (mem_uc main_arg7 (by decide))).trans (W5_launch m ρ c main_arg7 (by decide)),
      (h c _ (mem_uc main_arg8 (by decide))).trans (W5_launch m ρ c main_arg8 (by decide))⟩)
    (run m ρ)

end Cert.Kernel.Hand

end
-- ==== Proof.KI.R0.lean ====
/-
  Pallas call 0 of the program, one grid point at a time, for any contents `V` the TensorCore's
  buffers hold when the call is entered.

  Every window's block is moved whole: the body loads each input block entire, computes, and stores
  each output block entire, so what the body leaves in an output window's buffer is one function
  (`out0_w`) of the input blocks at that point, and every input buffer is left as found.  The
  proof data `dat0` records exactly that, and `body_obligation0` is the statement that the body,
  run on the buffers the pipeline hands it at a point, ends with them so.
-/
import proofs.«181728_g36885179138300_cont_8to1_b_1650_11_alg».proof.Proof.Gen.KernelIdeal.Launch
import proofs.«181728_g36885179138300_cont_8to1_b_1650_11_alg».proof.Proof.Gen.KernelIdeal.Skeleton
import proofs.«181728_g36885179138300_cont_8to1_b_1650_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the pipeline fetched it there or kept it
    from the point before (its block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds its block at every point, whether the pipeline fetched it there or kept it
    from the point before (its block index has then not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds its block at every point, whether the pipeline fetched it there or kept it
    from the point before (its block index has then not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output buffer -/

/-- Output window 3's buffer after the body: its one store, of the whole block. -/
def out0_3 (x0 : Vec F S1024x128 .f32) (x1 : Vec F S64x128 .f32) : Vec F S1024x64 .f32 :=
  View.canon [⟨(Rect.unit (s := S1024x64) ![0, 0] S1024x64.size inb_S1024x64_S1024x64_0_0), k0_pay1 (View.ld x0 (Rect.unit (s := S1024x128) ![0, 0] S1024x128.size inb_S1024x128_S1024x128_0_0)) (View.ld x1 (Rect.unit (s := S64x128) ![0, 0] S64x128.size inb_S64x128_S64x128_0_0))⟩]

/-- That store covers the buffer. -/
theorem cover0_3 (p0 : Vec F S1024x64 .f32) (y : S1024x64.Idx) :
    ∃ pc ∈ ([⟨(Rect.unit (s := S1024x64) ![0, 0] S1024x64.size inb_S1024x64_S1024x64_0_0), p0⟩] : List (View.Piece (Elt F) S1024x64 .f32)), y ∈ pc.1.set :=
  View.cover_of_tiled [⟨(Rect.unit (s := S1024x64) ![0, 0] S1024x64.size inb_S1024x64_S1024x64_0_0), p0⟩] S1024x64.size (by rfl) y

/-- Output window 4's buffer after the body: its one store, of the whole block. -/
def out0_4 (x0 : Vec F S1024x128 .f32) (x2 : Vec F S64x128 .f32) : Vec F S1024x64 .f32 :=
  View.canon [⟨(Rect.unit (s := S1024x64) ![0, 0] S1024x64.size inb_S1024x64_S1024x64_0_0), k0_pay2 (View.ld x0 (Rect.unit (s := S1024x128) ![0, 0] S1024x128.size inb_S1024x128_S1024x128_0_0)) (View.ld x2 (Rect.unit (s := S64x128) ![0, 0] S64x128.size inb_S64x128_S64x128_0_0))⟩]

/-- That store covers the buffer. -/
theorem cover0_4 (p0 : Vec F S1024x64 .f32) (y : S1024x64.Idx) :
    ∃ pc ∈ ([⟨(Rect.unit (s := S1024x64) ![0, 0] S1024x64.size inb_S1024x64_S1024x64_0_0), p0⟩] : List (View.Piece (Elt F) S1024x64 .f32)), y ∈ pc.1.set :=
  View.cover_of_tiled [⟨(Rect.unit (s := S1024x64) ![0, 0] S1024x64.size inb_S1024x64_S1024x64_0_0), p0⟩] S1024x64.size (by rfl) y

/-! ## The body's triple -/

set_option maxHeartbeats 4000000 in
/-- The body on whole buffers — the inputs' at contents `xW`, the outputs' at anything — ends with the inputs' as they
    were and each output's at `out0_w` of the inputs'. -/
theorem sound_kernel0 (c : Dev nD) (E : Set ℕ) (i : grid0.Coords) (arg0 : Memref sig .tc .vmem S1024x128 .f32) (harg0 : arg0.IsWhole) (arg1 : Memref sig .tc .vmem S64x128 .f32) (harg1 : arg1.IsWhole) (arg2 : Memref sig .tc .vmem S64x128 .f32) (harg2 : arg2.IsWhole) (arg3 : Memref sig .tc .vmem S1024x64 .f32) (harg3 : arg3.IsWhole) (arg4 : Memref sig .tc .vmem S1024x64 .f32) (harg4 : arg4.IsWhole)
    (x0 : Vec F S1024x128 .f32) (x1 : Vec F S64x128 .f32) (x2 : Vec F S64x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1) ∗ owns (c : Thread nD τ) arg4 fullShare (out0_4 x0 x2)) -∗ K ⟨⟩))
      ⊢ wp frame (wpE (defs₀ (F := F)) Variants.none c none) E (cc0__proj1_body i arg0 harg0 arg1 harg1 arg2 harg2 arg3 harg3 arg4 harg4) K := by
  simp only [cc0__proj1_body_eq_skeleton]; unfold cc0__proj1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data -/

/-- The arrays as the call finds them; after the body at point `t` each input buffer at its block and each output
    buffer at `out0_w` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks, so `sound_kernel0` applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Pallas call 1 of the program, one grid point at a time, for any contents `V` the TensorCore's
  buffers hold when the call is entered.

  Every window's block is moved whole: the body loads each input block entire, computes, and stores
  each output block entire, so what the body leaves in an output window's buffer is one function
  (`out1_w`) of the input blocks at that point, and every input buffer is left as found.  The
  proof data `dat1` records exactly that, and `body_obligation1` is the statement that the body,
  run on the buffers the pipeline hands it at a point, ends with them so.
-/
import proofs.«181728_g36885179138300_cont_8to1_b_1650_11_alg».proof.Proof.Gen.KernelIdeal.Launch
import proofs.«181728_g36885179138300_cont_8to1_b_1650_11_alg».proof.Proof.Gen.KernelIdeal.Skeleton
import proofs.«181728_g36885179138300_cont_8to1_b_1650_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the pipeline fetched it there or kept it
    from the point before (its block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds its block at every point, whether the pipeline fetched it there or kept it
    from the point before (its block index has then not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output buffer -/

/-- Output window 7's buffer after the body: its one store, of the whole block. -/
def out1_7 (x0 : Vec F S256x8192 .f32) (x1 : Vec F S256x8192 .f32) (x2 : Vec F S8192x64 .f32) (x3 : Vec F S8192x64 .f32) (x4 : Vec F S1x64 .f32) (x5 : Vec F S32x64 .f32) : Vec F S256x32 .f32 :=
  View.canon [⟨(Rect.unit (s := S256x32) ![0, 0] S256x32.size inb_S256x32_S256x32_0_0), k1_pay2 (View.ld x0 (Rect.unit (s := S256x8192) ![0, 0] S256x8192.size inb_S256x8192_S256x8192_0_0)) (View.ld x2 (Rect.unit (s := S8192x64) ![0, 0] S8192x64.size inb_S8192x64_S8192x64_0_0)) (View.ld x1 (Rect.unit (s := S256x8192) ![0, 0] S256x8192.size inb_S256x8192_S256x8192_0_0)) (View.ld x3 (Rect.unit (s := S8192x64) ![0, 0] S8192x64.size inb_S8192x64_S8192x64_0_0)) (View.ld x4 (Rect.unit (s := S1x64) ![0, 0] S1x64.size inb_S1x64_S1x64_0_0)) (View.ld x5 (Rect.unit (s := S32x64) ![0, 0] S32x64.size inb_S32x64_S32x64_0_0))⟩]

/-- That store covers the buffer. -/
theorem cover1_7 (p0 : Vec F S256x32 .f32) (y : S256x32.Idx) :
    ∃ pc ∈ ([⟨(Rect.unit (s := S256x32) ![0, 0] S256x32.size inb_S256x32_S256x32_0_0), p0⟩] : List (View.Piece (Elt F) S256x32 .f32)), y ∈ pc.1.set :=
  View.cover_of_tiled [⟨(Rect.unit (s := S256x32) ![0, 0] S256x32.size inb_S256x32_S256x32_0_0), p0⟩] S256x32.size (by rfl) y

/-- Output window 8's buffer after the body: its one store, of the whole block. -/
def out1_8 (x0 : Vec F S256x8192 .f32) (x1 : Vec F S256x8192 .f32) (x2 : Vec F S8192x64 .f32) (x3 : Vec F S8192x64 .f32) (x4 : Vec F S1x64 .f32) (x6 : Vec F S32x64 .f32) : Vec F S256x32 .f32 :=
  View.canon [⟨(Rect.unit (s := S256x32) ![0, 0] S256x32.size inb_S256x32_S256x32_0_0), k1_pay3 (View.ld x0 (Rect.unit (s := S256x8192) ![0, 0] S256x8192.size inb_S256x8192_S256x8192_0_0)) (View.ld x2 (Rect.unit (s := S8192x64) ![0, 0] S8192x64.size inb_S8192x64_S8192x64_0_0)) (View.ld x1 (Rect.unit (s := S256x8192) ![0, 0] S256x8192.size inb_S256x8192_S256x8192_0_0)) (View.ld x3 (Rect.unit (s := S8192x64) ![0, 0] S8192x64.size inb_S8192x64_S8192x64_0_0)) (View.ld x4 (Rect.unit (s := S1x64) ![0, 0] S1x64.size inb_S1x64_S1x64_0_0)) (View.ld x6 (Rect.unit (s := S32x64) ![0, 0] S32x64.size inb_S32x64_S32x64_0_0))⟩]

/-- That store covers the buffer. -/
theorem cover1_8 (p0 : Vec F S256x32 .f32) (y : S256x32.Idx) :
    ∃ pc ∈ ([⟨(Rect.unit (s := S256x32) ![0, 0] S256x32.size inb_S256x32_S256x32_0_0), p0⟩] : List (View.Piece (Elt F) S256x32 .f32)), y ∈ pc.1.set :=
  View.cover_of_tiled [⟨(Rect.unit (s := S256x32) ![0, 0] S256x32.size inb_S256x32_S256x32_0_0), p0⟩] S256x32.size (by rfl) y

/-! ## The body's triple -/

set_option maxHeartbeats 4000000 in
/-- The body on whole buffers — the inputs' at contents `xW`, the outputs' at anything — ends with the inputs' as they
    were and each output's at `out1_w` of the inputs'. -/
theorem sound_kernel1 (c : Dev nD) (E : Set ℕ) (i : grid1.Coords) (arg0 : Memref sig .tc .vmem S256x8192 .f32) (harg0 : arg0.IsWhole) (arg1 : Memref sig .tc .vmem S256x8192 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S1x64 .f32) (harg4 : arg4.IsWhole) (arg5 : Memref sig .tc .vmem S32x64 .f32) (harg5 : arg5.IsWhole) (arg6 : Memref sig .tc .vmem S32x64 .f32) (harg6 : arg6.IsWhole) (arg7 : Memref sig .tc .vmem S256x32 .f32) (harg7 : arg7.IsWhole) (arg8 : Memref sig .tc .vmem S256x32 .f32) (harg8 : arg8.IsWhole)
    (x0 : Vec F S256x8192 .f32) (x1 : Vec F S256x8192 .f32) (x2 : Vec F S8192x64 .f32) (x3 : Vec F S8192x64 .f32) (x4 : Vec F S1x64 .f32) (x5 : Vec F S32x64 .f32) (x6 : Vec F S32x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5) ∗ owns (c : Thread nD τ) arg8 fullShare (out1_8 x0 x1 x2 x3 x4 x6)) -∗ K ⟨⟩))
      ⊢ wp frame (wpE (defs₀ (F := F)) Variants.none c none) E (cc1__pass1_body i arg0 harg0 arg1 harg1 arg2 harg2 arg3 harg3 arg4 harg4 arg5 harg5 arg6 harg6 arg7 harg7 arg8 harg8) K := by
  simp only [cc1__pass1_body_eq_skeleton]; unfold cc1__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The proof data -/

/-- The arrays as the call finds them; after the body at point `t` each input buffer at its block and each output
    buffer at `out1_w` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' buffers hold their blocks, so `sound_kernel1` applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Pallas call 2 of the program, one grid point at a time, for any contents `V` the TensorCore's
  buffers hold when the call is entered.

  Every window's block is moved whole: the body loads each input block entire, computes, and stores
  each output block entire, so what the body leaves in an output window's buffer is one function
  (`out2_w`) of the input blocks at that point, and every input buffer is left as found.  The
  proof data `dat2` records exactly that, and `body_obligation2` is the statement that the body,
  run on the buffers the pipeline hands it at a point, ends with them so.
-/
import proofs.«181728_g36885179138300_cont_8to1_b_1650_11_alg».proof.Proof.Gen.KernelIdeal.Launch
import proofs.«181728_g36885179138300_cont_8to1_b_1650_11_alg».proof.Proof.Gen.KernelIdeal.Skeleton
import proofs.«181728_g36885179138300_cont_8to1_b_1650_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the pipeline fetched it there or kept it
    from the point before (its block index has then not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point, whether the pipeline fetched it there or kept it
    from the point before (its block index has then not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point, whether the pipeline fetched it there or kept it
    from the point before (its block index has then not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point, whether the pipeline fetched it there or kept it
    from the point before (its block index has then not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point, whether the pipeline fetched it there or kept it
    from the point before (its block index has then not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output buffer -/

/-- Output window 5's buffer after the body: its one store, of the whole block. -/
def out2_5 (x0 : Vec F S256x8192 .f32) (x1 : Vec F S256x8192 .f32) (x2 : Vec F S8192x32 .f32) (x3 : Vec F S8192x32 .f32) (x4 : Vec F S1x32 .f32) : Vec F S256x32 .f32 :=
  View.canon [⟨(Rect.unit (s := S256x32) ![0, 0] S256x32.size inb_S256x32_S256x32_0_0), k2_pay1 (View.ld x0 (Rect.unit (s := S256x8192) ![0, 0] S256x8192.size inb_S256x8192_S256x8192_0_0)) (View.ld x2 (Rect.unit (s := S8192x32) ![0, 0] S8192x32.size inb_S8192x32_S8192x32_0_0)) (View.ld x1 (Rect.unit (s := S256x8192) ![0, 0] S256x8192.size inb_S256x8192_S256x8192_0_0)) (View.ld x3 (Rect.unit (s := S8192x32) ![0, 0] S8192x32.size inb_S8192x32_S8192x32_0_0)) (View.ld x4 (Rect.unit (s := S1x32) ![0, 0] S1x32.size inb_S1x32_S1x32_0_0))⟩]

/-- That store covers the buffer. -/
theorem cover2_5 (p0 : Vec F S256x32 .f32) (y : S256x32.Idx) :
    ∃ pc ∈ ([⟨(Rect.unit (s := S256x32) ![0, 0] S256x32.size inb_S256x32_S256x32_0_0), p0⟩] : List (View.Piece (Elt F) S256x32 .f32)), y ∈ pc.1.set :=
  View.cover_of_tiled [⟨(Rect.unit (s := S256x32) ![0, 0] S256x32.size inb_S256x32_S256x32_0_0), p0⟩] S256x32.size (by rfl) y

/-! ## The body's triple -/

set_option maxHeartbeats 4000000 in
/-- The body on whole buffers — the inputs' at contents `xW`, the outputs' at anything — ends with the inputs' as they
    were and each output's at `out2_w` of the inputs'. -/
theorem sound_kernel2 (c : Dev nD) (E : Set ℕ) (i : grid2.Coords) (arg0 : Memref sig .tc .vmem S256x8192 .f32) (harg0 : arg0.IsWhole) (arg1 : Memref sig .tc .vmem S256x8192 .f32) (harg1 : arg1.IsWhole) (arg2 : Memref sig .tc .vmem S8192x32 .f32) (harg2 : arg2.IsWhole) (arg3 : Memref sig .tc .vmem S8192x32 .f32) (harg3 : arg3.IsWhole) (arg4 : Memref sig .tc .vmem S1x32 .f32) (harg4 : arg4.IsWhole) (arg5 : Memref sig .tc .vmem S256x32 .f32) (harg5 : arg5.IsWhole)
    (x0 : Vec F S256x8192 .f32) (x1 : Vec F S256x8192 .f32) (x2 : Vec F S8192x32 .f32) (x3 : Vec F S8192x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__pass2_body i arg0 harg0 arg1 harg1 arg2 harg2 arg3 harg3 arg4 harg4 arg5 harg5) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- The arrays as the call finds them; after the body at point `t` each input buffer at its block and each output
    buffer at `out2_w` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1000000 in
/-- The body at any point: the inputs' buffers hold their blocks, so `sound_kernel2` applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Pallas call 3 of the program, one grid point at a time, for any contents `V` the TensorCore's
  buffers hold when the call is entered.

  Every window's block is moved whole: the body loads each input block entire, computes, and stores
  each output block entire, so what the body leaves in an output window's buffer is one function
  (`out3_w`) of the input blocks at that point, and every input buffer is left as found.  The
  proof data `dat3` records exactly that, and `body_obligation3` is the statement that the body,
  run on the buffers the pipeline hands it at a point, ends with them so.
-/
import proofs.«181728_g36885179138300_cont_8to1_b_1650_11_alg».proof.Proof.Gen.KernelIdeal.Launch
import proofs.«181728_g36885179138300_cont_8to1_b_1650_11_alg».proof.Proof.Gen.KernelIdeal.Skeleton
import proofs.«181728_g36885179138300_cont_8to1_b_1650_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, whether the pipeline fetched it there or kept it
    from the point before (its block index has then not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's buffer holds its block at every point, whether the pipeline fetched it there or kept it
    from the point before (its block index has then not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output buffer -/

/-- Output window 2's buffer after the body: its one store, of the whole block. -/
def out3_2 (x0 : Vec F S256x32 .f32) (x1 : Vec F S8192x32 .f32) : Vec F S256x8192 .f32 :=
  View.canon [⟨(Rect.unit (s := S256x8192) ![0, 0] S256x8192.size inb_S256x8192_S256x8192_0_0), k3_pay1 (View.ld x0 (Rect.unit (s := S256x32) ![0, 0] S256x32.size inb_S256x32_S256x32_0_0)) (View.ld x1 (Rect.unit (s := S8192x32) ![0, 0] S8192x32.size inb_S8192x32_S8192x32_0_0))⟩]

/-- That store covers the buffer. -/
theorem cover3_2 (p0 : Vec F S256x8192 .f32) (y : S256x8192.Idx) :
    ∃ pc ∈ ([⟨(Rect.unit (s := S256x8192) ![0, 0] S256x8192.size inb_S256x8192_S256x8192_0_0), p0⟩] : List (View.Piece (Elt F) S256x8192 .f32)), y ∈ pc.1.set :=
  View.cover_of_tiled [⟨(Rect.unit (s := S256x8192) ![0, 0] S256x8192.size inb_S256x8192_S256x8192_0_0), p0⟩] S256x8192.size (by rfl) y

/-! ## The body's triple -/

set_option maxHeartbeats 4000000 in
/-- The body on whole buffers — the inputs' at contents `xW`, the outputs' at anything — ends with the inputs' as they
    were and each output's at `out3_w` of the inputs'. -/
theorem sound_kernel3 (c : Dev nD) (E : Set ℕ) (i : grid3.Coords) (arg0 : Memref sig .tc .vmem S256x32 .f32) (harg0 : arg0.IsWhole) (arg1 : Memref sig .tc .vmem S8192x32 .f32) (harg1 : arg1.IsWhole) (arg2 : Memref sig .tc .vmem S256x8192 .f32) (harg2 : arg2.IsWhole)
    (x0 : Vec F S256x32 .f32) (x1 : Vec F S8192x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__decode_body i arg0 harg0 arg1 harg1 arg2 harg2) K := by
  simp only [cc3__decode_body_eq_skeleton]; unfold cc3__decode_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The arrays as the call finds them; after the body at point `t` each input buffer at its block and each output
    buffer at `out3_w` of the input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in
/-- The body at any point: the inputs' buffers hold their blocks, so `sound_kernel3` applies; the invariant and what
    the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Shared3.lean ====
/-
  The last Pallas call reads the embedding array Z through TWO input windows: a row block of it and
  the whole of it.  One buffer cannot be held whole twice, so the buffer's full share is dealt in two
  halves, one to each window (reading needs only a share), and the halves are joined again when the
  call is left.  The output array is held outright.  `deal3` states both directions at once: the
  distinct buffers behind the call's arrays, each whole at the full share, are the call's windows'
  arrays at their shares, at the same contents.
-/
import proofs.«181728_g36885179138300_cont_8to1_b_1650_11_alg».proof.Proof.KI.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the call's three windows: the embedding array (twice) and the output. -/
theorem image_arr3 : Finset.univ.image (Pipeline.arrRef spec3) = {main_v4, main_v5} := by decide

theorem deal3 (c : Dev nD) (dat : Dat τ (Elt F) Unit ℕ (UR sig nD τ) ℕ cfg3 c)
    (hq0 : dat.q 0 = fullShare.left) (hq1 : dat.q 1 = fullShare.right)
    (G : (b : Ref sig .tc) → Buf (Elt F) ((c : Thread nD τ).loc b)) :
    (Pipeline.arrBufs spec3 c G : sProp 𝕄) ⊣⊢ dat.arrays (fun w => G (Pipeline.arrRef spec3 w)) := by
  unfold Pipeline.arrBufs Dat.arrays
  rw [bigSep_W3, image_arr3, bigSep_insert (by decide), bigSep_singleton]
  unfold Dat.share
  rw [if_neg (by decide : ¬ (cfg3.win 0).isOut = true), if_neg (by decide : ¬ (cfg3.win 1).isOut = true),
    if_pos (by decide : (cfg3.win 2).isOut = true), hq0, hq1,
    (arr_whole3 0).set_eq_univ, (arr_whole3 2).set_eq_univ]
  change iprop((((c : Thread nD τ).loc main_v4) ↦{fullShare} G main_v4) ∗ (((c : Thread nD τ).loc main_v5) ↦{fullShare} G main_v5)) ⊣⊢ _
  refine ⟨?_, ?_⟩
  · iintro ⟨H4, H5⟩
    ihave H := (pointsTo_share (PosShare.mem_left_op_right fullShare)).1 $$ H4
    icases H with ⟨Ha, Hb⟩
    isplitl [Ha]; · iexact Ha
    isplitl [Hb]; · iexact Hb
    iexact H5
  · iintro ⟨Ha, Hb, H5⟩
    isplitl [Ha Hb]
    · iapply (pointsTo_share (PosShare.mem_left_op_right fullShare)).2
      isplitl [Ha]; · iexact Ha
      iexact Hb
    iexact H5

end Cert.KernelIdeal.Hand

end
-- ==== Proof.KI.Run.lean ====
/-
  The whole program as a run of five segments — the two reshapes of the bias vectors, then the four
  Pallas calls in order — with the contents of every unscoped buffer named at each boundary:
  `W0` at launch, `W1` after the reshapes, `W2` … `W5` after each call.  Each call's arrays leave it at
  what its pipeline's write-backs make of them and every other buffer as it entered, so the fold can
  be read backwards: an array no call writes is at its launch contents at the end, and the two results
  are the last write-back folds of calls 2 and 3.  `run` is the statement that every weakly fair
  execution terminates, faulting nowhere, with every unscoped buffer at `W5`.
-/
import proofs.«181728_g36885179138300_cont_8to1_b_1650_11_alg».proof.Proof.KI.R0
import proofs.«181728_g36885179138300_cont_8to1_b_1650_11_alg».proof.Proof.KI.R1
import proofs.«181728_g36885179138300_cont_8to1_b_1650_11_alg».proof.Proof.KI.R2
import proofs.«181728_g36885179138300_cont_8to1_b_1650_11_alg».proof.Proof.KI.R3
import proofs.«181728_g36885179138300_cont_8to1_b_1650_11_alg».proof.Proof.KI.Shared3
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- After Pallas call 0: its arrays at what the pipeline leaves (an input as entered, an output with every point's
    write-back folded in), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- A buffer that is no OUTPUT array of call 0 is left as entered: an input array is only read. -/
theorem W2_kept (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    rw [W2_arr, (dat0 (U1 m ρ) c).arrAt_in w hin _, A_eq0]
  · exact W2_of_ne m ρ c b fun w e => h ⟨w, e⟩

/-- After Pallas call 1: its arrays at what the pipeline leaves (an input as entered, an output with every point's
    write-back folded in), every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- A buffer that is no OUTPUT array of call 1 is left as entered: an input array is only read. -/
theorem W3_kept (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    rw [W3_arr, (dat1 (U2 m ρ) c).arrAt_in w hin _, A_eq1]
  · exact W3_of_ne m ρ c b fun w e => h ⟨w, e⟩

/-- After Pallas call 2: its arrays at what the pipeline leaves (an input as entered, an output with every point's
    write-back folded in), every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)
/-- A buffer that is no OUTPUT array of call 2 is left as entered: an input array is only read. -/
theorem W4_kept (c : Dev nD) (b : Ref sig .tc) (hb : ∀ w, (cfg2.win w).isOut = true → Pipeline.arrRef spec2 w ≠ b) :
    W4 m ρ c (Proc.devRef .tc b) = W3 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    rw [W4_arr, (dat2 (U3 m ρ) c).arrAt_in w hin _, A_eq2]
  · exact W4_of_ne m ρ c b fun w e => h ⟨w, e⟩

/-- After the last call: its output array at the write-back fold; the embedding array, which it only reads (through
    two windows), and every other buffer as entered. -/
def W5 (c : Dev nD) : Valuation τ sig (Elt F) :=
  Function.update (W4 m ρ c) main_v5 ((dat3 (U4 m ρ) c).arrAt 2 cfg3.N)
abbrev U5 : (c : Dev nD) → (b : Ref sig .tc) → Buf (Elt F) ((c : Thread nD τ).loc b) := fun c b => W5 m ρ c b
theorem W5_out (c : Dev nD) : W5 m ρ c (Proc.devRef .tc main_v5) = (dat3 (U4 m ρ) c).arrAt 2 cfg3.N := by
  unfold W5; exact Function.update_self ..
theorem W5_kept (c : Dev nD) (b : Ref sig .tc) (hb : b ≠ main_v5) : W5 m ρ c (Proc.devRef .tc b) = W4 m ρ c (Proc.devRef .tc b) := by
  unfold W5; exact Function.update_of_ne (StableHlo.devRef_ne_of_ne hb) ..
theorem hF3 (c : Dev nD) (w : Fin cfg3.W) : (dat3 (U4 m ρ) c).arrAt w cfg3.N = U5 m ρ c (Pipeline.arrRef spec3 w) := by
  match w with
  | ⟨0, _⟩ => exact ((dat3 (U4 m ρ) c).arrAt_in 0 rfl _).trans ((A_eq3 (U4 m ρ) c 0).trans (W5_kept m ρ c main_v4 (by decide)).symm)
  | ⟨1, _⟩ => exact ((dat3 (U4 m ρ) c).arrAt_in 1 rfl _).trans ((A_eq3 (U4 m ρ) c 1).trans (W5_kept m ρ c main_v4 (by decide)).symm)
  | ⟨2, _⟩ => exact (W5_out m ρ c).symm
theorem hrest3 (c : Dev nD) : ∀ b, b ∉ Finset.univ.image (Pipeline.arrRef spec3) → U5 m ρ c b = U4 m ρ c b :=
  fun b hb => W5_kept m ρ c b fun e => hb (Finset.mem_image.mpr ⟨2, Finset.mem_univ _, e.symm⟩)

/-! ## The proof data family and what rides along -/

abbrev adm : (p : Fin 4) → (pcfgs (F := F) p).Adm := fun p => (cfgs p).toPCfg_adm
/-- Every call's proof data, each at the contents its call is entered with. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U4 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- Neither reshape allocates a buffer. -/
theorem reshapes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- Pallas call 0 as a segment of the program: entered with every unscoped buffer at `W1`, left with them at
    `W2`.  Its arrays are taken out of the unscoped buffers at entry and put back, at what the write-backs leave,
    at exit; the generator register passes through the body's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the program: entered with every unscoped buffer at `W2`, left with them at
    `W3`.  Its arrays are taken out of the unscoped buffers at entry and put back, at what the write-backs leave,
    at exit; the generator register passes through the body's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment of the program: entered with every unscoped buffer at `W3`, left with them at
    `W4`.  Its arrays are taken out of the unscoped buffers at entry and put back, at what the write-backs leave,
    at exit; the generator register passes through the body's invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Entering the last call: the unscoped buffers are the distinct buffers behind its arrays and the rest; the
    embedding array's share is dealt to the two windows that read it. -/
theorem entry3 (c : Dev nD) :
    (StableHlo.held (c : Thread nD τ) (Pipeline.ucRefs τ sig) (W4 m ρ c) : sProp 𝕄)
      ⊢ iprop((dat3 (U4 m ρ) c).arrays (fun w => U4 m ρ c (Pipeline.arrRef spec3 w))
          ∗ Pipeline.unscopedRest (Ix := Unit) (Name := ℕ) (U := UR sig nD τ) (Lvl := ℕ) spec3 c (U4 m ρ c)) := by
  rw [← Pipeline.unscopedBufs_held c (W4 m ρ c), Pipeline.unscopedBufs_split₀ cfgs 3 (by decide) c (U4 m ρ c)]
  exact sep_mono (deal3 c _ rfl rfl _).1 .rfl

/-- Leaving it: the shares joined, the output array at its write-back fold, the rest untouched. -/
theorem exit3 (c : Dev nD) :
    iprop((dat3 (U4 m ρ) c).arrays (fun w => (dat3 (U4 m ρ) c).arrAt w cfg3.N)
          ∗ Pipeline.unscopedRest (Ix := Unit) (Name := ℕ) (U := UR sig nD τ) (Lvl := ℕ) spec3 c (U4 m ρ c))
      ⊢ (StableHlo.held (c : Thread nD τ) (Pipeline.ucRefs τ sig) (W5 m ρ c) : sProp 𝕄) := by
  rw [← Pipeline.unscopedBufs_held c (W5 m ρ c), Pipeline.unscopedBufs_split₀ cfgs 3 (by decide) c (U5 m ρ c)]
  refine sep_mono ?_ (Entails.of_eq ?_)
  · rw [show (fun w => (dat3 (U4 m ρ) c).arrAt w cfg3.N) = fun w => U5 m ρ c (Pipeline.arrRef spec3 w) from funext (hF3 m ρ c)]
    exact (deal3 c _ rfl rfl _).2
  · unfold Pipeline.unscopedRest
    exact bigSep_congr fun b hb => by rw [hrest3 m ρ c b (Finset.mem_sdiff.mp hb).2]

set_option backward.isDefEq.respectTransparency.types false in
/-- Pallas call 3 as a segment: entered at `W4`, left at `W5`. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (U4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U4 m ρ c)
  hentry c := by
    rw [Pipeline.ownSems0_none]
    iintro ⟨⟨Hub, Hp, HO⟩, -, -⟩
    ihave H := (entry3 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · have hjoin : iprop((pdats m ρ 3 c).arrays ((pdats m ρ 3 c).arrAt · cfg3.N)
            ∗ Pipeline.unscopedRest (Ix := Unit) (Name := ℕ) (U := UR sig nD τ) (Lvl := ℕ) spec3 c (U4 m ρ c))
            ⊢ (StableHlo.held (c : Thread nD τ) (Pipeline.ucRefs τ sig) (W5 m ρ c) : sProp 𝕄) := exit3 m ρ c
        iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub reshapes_fresh (W0 m ρ)),
    .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    ends with every unscoped buffer of every core at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Reading the fold backwards -/

/-- The reshapes write only the two bias rows. -/
theorem W1_kept (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- A buffer written by no reshape and no call ends at its launch contents. -/
theorem W5_launch (c : Dev nD) (b : Ref sig .tc) (hb : b ∉ ([main_v0, main_v1, main_v2_0, main_v2_1, main_v3_0, main_v3_1, main_v4, main_v5] : List (Ref sig .tc))) :
    W5 m ρ c (Proc.devRef .tc b) = m ((c : Thread nD τ).loc b) := by
  simp only [List.mem_cons, List.not_mem_nil, or_false, not_or] at hb
  obtain ⟨h0, h1, h20, h21, h30, h31, h4, h5⟩ := hb
  rw [W5_kept m ρ c b h5,
    W4_kept m ρ c b (fun w hw => by revert hw; revert w; intro w; fin_cases w <;> first | (intro hw; exact absurd hw (by decide)) | (intro _; exact Ne.symm h4)),
    W3_kept m ρ c b (fun w hw => by revert hw; revert w; intro w; fin_cases w <;> first | (intro hw; exact absurd hw (by decide)) | (intro _; exact Ne.symm h30) | (intro _; exact Ne.symm h31)),
    W2_kept m ρ c b (fun w hw => by revert hw; revert w; intro w; fin_cases w <;> first | (intro hw; exact absurd hw (by decide)) | (intro _; exact Ne.symm h20) | (intro _; exact Ne.symm h21)),
    W1_kept m ρ c b h0 h1]

end Cert.KernelIdeal.Hand

end
-- ==== Proof.KI.Frame.lean ====
/-
  The program's argument arrays end as launched: the reshapes write only the two bias rows and each
  Pallas call writes only its own output arrays, so none of the nine arguments is ever written.
-/
import proofs.«181728_g36885179138300_cont_8to1_b_1650_11_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W5_launch m ρ c main_arg0 (by decide)),
      (h c _ (mem_uc main_arg1 (by decide))).trans (W5_launch m ρ c main_arg1 (by decide)),
      (h c _ (mem_uc main_arg2 (by decide))).trans (W5_launch m ρ c main_arg2 (by decide)),
      (h c _ (mem_uc main_arg3 (by decide))).trans (W5_launch m ρ c main_arg3 (by decide)),
      (h c _ (mem_uc main_arg4 (by decide))).trans (W5_launch m ρ c main_arg4 (by decide)),
      (h c _ (mem_uc main_arg5 (by decide))).trans (W5_launch m ρ c main_arg5 (by decide)),
      (h c _ (mem_uc main_arg6 (by decide))).trans (W5_launch m ρ c main_arg6 (by decide)),
      (h c _ (mem_uc main_arg7 (by decide))).trans (W5_launch m ρ c main_arg7 (by decide)),
      (h c _ (mem_uc main_arg8 (by decide))).trans (W5_launch m ρ c main_arg8 (by decide))⟩)
    (run m ρ)

end Cert.KernelIdeal.Hand

end
-- ==== Proof.Spec.lean ====
/-
  The function both programs compute, stated once over matrices of extended reals.

  A relational graph convolution with two edge types and an inner-product decoder: from node
  features H, two normalised adjacency matrices A0 and A1, first-layer weights W10, W11 and bias b1,
  second-layer weights W20, W21 and bias b2,

      H1 = max(A0·(H·W10ᵀ) + A1·(H·W11ᵀ) + b1, 0),   Z = A0·(H1·W20ᵀ) + A1·(H1·W21ᵀ) + b2,   Â = Z·Zᵀ.

  The products can be associated either way — project the features first and then aggregate over
  the graph (`H1p`, `Zp`), or aggregate first and then project (`H1a`, `Za`).  Over the reals the
  two agree by associativity of the matrix product; on the extended reals that law needs every
  entry finite, which is why realness (`IsReal₁`, `IsReal₂`) is carried beside the values.
-/
import Idealize.ShloMosaic.PureOps.Ideal
import Idealize.ShloMosaic.Lib.ValueIdx

noncomputable section

open scoped BigOperators

namespace Cert.Spec

open Idealize.ShloMosaic Idealize.ShloMosaic.ValueIdx

/-- Every entry of the vector is a real number. -/
def IsReal₁ {ι : Type} (x : ι → EReal) : Prop := ∀ i, ∃ r : ℝ, x i = (r : EReal)
/-- Every entry of the matrix is a real number. -/
def IsReal₂ {ι κ : Type} (x : ι → κ → EReal) : Prop := ∀ i j, ∃ r : ℝ, x i j = (r : EReal)

/-- The plain product: (A·B)[i,k] = Σ_j A[i,j]·B[j,k]. -/
def mm {a b c : ℕ} (A : Fin a → Fin b → EReal) (B : Fin b → Fin c → EReal) : Fin a → Fin c → EReal :=
  fun i k => ∑ j, A i j * B j k
/-- The product against a transposed right factor: (A·Bᵀ)[i,k] = Σ_j A[i,j]·B[k,j]. -/
def mmT {a b c : ℕ} (A : Fin a → Fin b → EReal) (B : Fin c → Fin b → EReal) : Fin a → Fin c → EReal :=
  fun i k => ∑ j, A i j * B k j

section Net

variable {n f h e : ℕ} (H : Fin n → Fin f → EReal) (A0 A1 : Fin n → Fin n → EReal)
  (W10 W11 : Fin h → Fin f → EReal) (b1 : Fin h → EReal) (W20 W21 : Fin e → Fin h → EReal) (b2 : Fin e → EReal)

/-- The hidden layer, features projected before aggregation. -/
def H1p : Fin n → Fin h → EReal :=
  fun i k => max ((mm A0 (mmT H W10) i k + mm A1 (mmT H W11) i k) + b1 k) 0
/-- The embedding, hidden features projected before aggregation. -/
def Zp : Fin n → Fin e → EReal :=
  fun i k => (mm A0 (mmT (H1p H A0 A1 W10 W11 b1) W20) i k + mm A1 (mmT (H1p H A0 A1 W10 W11 b1) W21) i k) + b2 k
/-- The hidden layer, aggregation before projection. -/
def H1a : Fin n → Fin h → EReal :=
  fun i k => max ((mmT (mm A0 H) W10 i k + mmT (mm A1 H) W11 i k) + b1 k) 0
/-- The embedding, aggregation before projection. -/
def Za : Fin n → Fin e → EReal :=
  fun i k => (mmT (mm A0 (H1a H A0 A1 W10 W11 b1)) W20 i k + mmT (mm A1 (H1a H A0 A1 W10 W11 b1)) W21 i k) + b2 k

end Net

/-- The inner-product decoder: Â[i,j] = Σ_k Z[i,k]·Z[j,k]. -/
def dec {n e : ℕ} (Z : Fin n → Fin e → EReal) : Fin n → Fin n → EReal := mmT Z Z

/-- A rank-2 array read as a matrix. -/
def mat {a b : ℕ} (x : (⟨2, ![a, b]⟩ : Shape).Idx → EReal) : Fin a → Fin b → EReal := fun p q => x (ix2 p q)
/-- A rank-1 array read as a vector. -/
def vec {a : ℕ} (x : (⟨1, ![a]⟩ : Shape).Idx → EReal) : Fin a → EReal := fun p => x (ix1 p)

end Cert.Spec

end
-- ==== Proof.KI.Val0.lean ====
/-
  The first Pallas call as a whole-array function.  Its grid has eight points; point t reads rows
  1024·t … 1024·t+1023 of the feature matrix H and both first-layer weight matrices whole, and writes
  the same rows of the two projected-feature arrays.  Row r of an output therefore depends only on
  row r of H:  HW_r = H · W1_rᵀ, entry (i, k) being the sum over the feature axis of H[i,f]·W1_r[k,f].
  The eight row blocks tile the output, so after the call each output array IS that product.
-/
import proofs.«181728_g36885179138300_cont_8to1_b_1650_11_alg».proof.Proof.KI.R0
import proofs.«181728_g36885179138300_cont_8to1_b_1650_11_alg».proof.Proof.Spec
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

/-- Block offsets are written from the zero vector. -/
theorem hz : (![0, 0] : Fin 2 → Nat) = fun _ => 0 := funext fun a => by fin_cases a <;> rfl

variable (V : (c : Dev nD) → (b : Ref sig .tc) → Buf (Elt Ideal) ((c : Thread nD τ).loc b))

/-- Features times a transposed weight matrix, as an array. -/
def projArr (H : S8192x128.Idx → EReal) (W : S64x128.Idx → EReal) : S8192x64.Idx → EReal :=
  fun i => mmT (mat H) (mat W) (i 0) (i 1)

/-- The printed index maps over the grid: H's window and both output windows move down the rows with the point, the
    weight windows stay put. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of H's block at point t is row 1024·t + p of H. -/
theorem rd0_H (c : Dev nD) (t : Fin cfg0.N) (p : Fin 1024) (k : Fin 128) (r : Fin 8192) (hr : r.val = t.val * 1024 + p.val) :
    iblk0 V c 0 t (ix2 p k) = V c main_arg0 (ix2 r k) := by
  obtain ⟨e0, e1, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 1024 + 1 * p.val = r.val; omega
  | ⟨1, _⟩ => show win0_0.index t (1 : Fin 2) * 128 + 1 * k.val = k.val; omega

/-- A weight window's block is the whole weight matrix. -/
theorem rd0_W0 (c : Dev nD) (t : Fin cfg0.N) (q : Fin 64) (k : Fin 128) :
    iblk0 V c 1 t (ix2 q k) = V c main_arg3 (ix2 q k) := by
  obtain ⟨-, -, e0, e1, -⟩ := idx_facts0 t
  show V c main_arg3 (((cfg0.win 1).blk t).view.emb (ix2 q k)) = V c main_arg3 (ix2 q k)
  refine congrArg (V c main_arg3) (funext fun a => Fin.ext ?_)
  match a with
  | ⟨0, _⟩ => show win0_1.index t (0 : Fin 2) * 64 + 1 * q.val = q.val; omega
  | ⟨1, _⟩ => show win0_1.index t (1 : Fin 2) * 128 + 1 * k.val = k.val; omega
theorem rd0_W1 (c : Dev nD) (t : Fin cfg0.N) (q : Fin 64) (k : Fin 128) :
    iblk0 V c 2 t (ix2 q k) = V c main_arg4 (ix2 q k) := by
  obtain ⟨-, -, -, -, e0, e1, -⟩ := idx_facts0 t
  show V c main_arg4 (((cfg0.win 2).blk t).view.emb (ix2 q k)) = V c main_arg4 (ix2 q k)
  refine congrArg (V c main_arg4) (funext fun a => Fin.ext ?_)
  match a with
  | ⟨0, _⟩ => show win0_2.index t (0 : Fin 2) * 64 + 1 * q.val = q.val; omega
  | ⟨1, _⟩ => show win0_2.index t (1 : Fin 2) * 128 + 1 * k.val = k.val; omega

/-- Where entry (p, q) of an output block at point t sits in the output array. -/
theorem emb0_3 (t : Fin cfg0.N) (p : Fin 1024) (q : Fin 64) (r : Fin 8192) (hr : r.val = t.val * 1024 + p.val) :
    ((cfg0.win 3).blk t).view.emb (ix2 p q) = ix2 r q := by
  obtain ⟨-, -, -, -, -, -, e0, e1, -⟩ := idx_facts0 t
  refine funext fun a => Fin.ext ?_
  match a with
  | ⟨0, _⟩ => show win0_3.index t (0 : Fin 2) * 1024 + 1 * p.val = r.val; omega
  | ⟨1, _⟩ => show win0_3.index t (1 : Fin 2) * 64 + 1 * q.val = q.val; omega
theorem emb0_4 (t : Fin cfg0.N) (p : Fin 1024) (q : Fin 64) (r : Fin 8192) (hr : r.val = t.val * 1024 + p.val) :
    ((cfg0.win 4).blk t).view.emb (ix2 p q) = ix2 r q := by
  obtain ⟨-, -, -, -, -, -, -, -, e0, e1⟩ := idx_facts0 t
  refine funext fun a => Fin.ext ?_
  match a with
  | ⟨0, _⟩ => show win0_4.index t (0 : Fin 2) * 1024 + 1 * p.val = r.val; omega
  | ⟨1, _⟩ => show win0_4.index t (1 : Fin 2) * 64 + 1 * q.val = q.val; omega

section
variable (hpay1 : ∀ (v0 : Vec Ideal S1024x128 .f32) (v1 : Vec Ideal S64x128 .f32) (p : Fin 1024) (q : Fin 64),
    k0_pay1 (F := Ideal) v0 v1 (ix2 p q) = mmT (mat v0) (mat v1) p q)
  (hpay2 : ∀ (v0 : Vec Ideal S1024x128 .f32) (v1 : Vec Ideal S64x128 .f32) (p : Fin 1024) (q : Fin 64),
    k0_pay2 (F := Ideal) v0 v1 (ix2 p q) = mmT (mat v0) (mat v1) p q)

include hpay1 in
/-- What point t writes back through output window 3 is block t of H · W1_0ᵀ. -/
theorem flushed0_3_eq (c : Dev nD) (t : Fin cfg0.N) :
    (dat0 V c).flushed 3 t = ((cfg0.win 3).blk t).view.read (Elt Ideal) (projArr (V c main_arg0) (V c main_arg3)) := by
  show (cfg0.win 3).cut (grid0.coords t) ((dat0 V c).after 3 t) = _
  rw [after0_3]
  unfold out0_3
  rw [View.canon_unit_zero hz]
  simp only [View.ld_unit_zero (S := S1024x128) hz, View.ld_unit_zero (S := S64x128) hz]
  funext j
  obtain ⟨p, q, rfl⟩ : ∃ (p : Fin 1024) (q : Fin 64), j = ix2 p q := ⟨j 0, j 1, eq_ix2 j⟩
  have ht8 : t.val < 8 := lt_of_lt_of_eq t.isLt (show cfg0.N = 8 from N_0)
  have hlt : t.val * 1024 + p.val < 8192 := by have := p.isLt; omega
  show k0_pay1 (F := Ideal) (iblk0 V c 0 t) (iblk0 V c 1 t) (ix2 p q)
    = projArr (V c main_arg0) (V c main_arg3) (((cfg0.win 3).blk t).view.emb (ix2 p q))
  rw [hpay1, emb0_3 t p q ⟨_, hlt⟩ rfl]
  simp only [projArr, mmT, mat]
  refine Finset.sum_congr rfl fun k _ => ?_
  rw [rd0_H V c t p k ⟨_, hlt⟩ rfl, rd0_W0 V c t q k]

include hpay2 in
theorem flushed0_4_eq (c : Dev nD) (t : Fin cfg0.N) :
    (dat0 V c).flushed 4 t = ((cfg0.win 4).blk t).view.read (Elt Ideal) (projArr (V c main_arg0) (V c main_arg4)) := by
  show (cfg0.win 4).cut (grid0.coords t) ((dat0 V c).after 4 t) = _
  rw [after0_4]
  unfold out0_4
  rw [View.canon_unit_zero hz]
  simp only [View.ld_unit_zero (S := S1024x128) hz, View.ld_unit_zero (S := S64x128) hz]
  funext j
  obtain ⟨p, q, rfl⟩ : ∃ (p : Fin 1024) (q : Fin 64), j = ix2 p q := ⟨j 0, j 1, eq_ix2 j⟩
  have ht8 : t.val < 8 := lt_of_lt_of_eq t.isLt (show cfg0.N = 8 from N_0)
  have hlt : t.val * 1024 + p.val < 8192 := by have := p.isLt; omega
  show k0_pay2 (F := Ideal) (iblk0 V c 0 t) (iblk0 V c 2 t) (ix2 p q)
    = projArr (V c main_arg0) (V c main_arg4) (((cfg0.win 4).blk t).view.emb (ix2 p q))
  rw [hpay2, emb0_4 t p q ⟨_, hlt⟩ rfl]
  simp only [projArr, mmT, mat]
  refine Finset.sum_congr rfl fun k _ => ?_
  rw [rd0_H V c t p k ⟨_, hlt⟩ rfl, rd0_W1 V c t q k]

/-- Every row of an output array is in the block of the point that owns it: row r belongs to point r / 1024. -/
theorem tile0_3 (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  have hN : (i 0).val / 1024 < cfg0.N := by rw [show cfg0.N = 8 from N_0]; omega
  refine ⟨⟨(i 0).val / 1024, hN⟩, flush0_3 _, ?_⟩
  obtain ⟨-, -, -, -, -, -, e0, e1, -⟩ := idx_facts0 ⟨(i 0).val / 1024, hN⟩
  show i ∈ ((View.whole main_v2_0).slice (win0_3.rect ⟨(i 0).val / 1024, hN⟩)).set
  rw [View.set_slice_whole, Rect.mem_set_unit]
  intro a
  match a with
  | ⟨0, _⟩ => show win0_3.index ⟨(i 0).val / 1024, hN⟩ (0 : Fin 2) * 1024 ≤ (i 0).val ∧ (i 0).val < win0_3.index ⟨(i 0).val / 1024, hN⟩ (0 : Fin 2) * 1024 + 1024; rw [e0]; show (i 0).val / 1024 * 1024 ≤ (i 0).val ∧ (i 0).val < (i 0).val / 1024 * 1024 + 1024; omega
  | ⟨1, _⟩ => show win0_3.index _ (1 : Fin 2) * 64 ≤ (i 1).val ∧ (i 1).val < win0_3.index _ (1 : Fin 2) * 64 + 64; rw [e1]; omega
theorem tile0_4 (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  have hN : (i 0).val / 1024 < cfg0.N := by rw [show cfg0.N = 8 from N_0]; omega
  refine ⟨⟨(i 0).val / 1024, hN⟩, flush0_4 _, ?_⟩
  obtain ⟨-, -, -, -, -, -, -, -, e0, e1⟩ := idx_facts0 ⟨(i 0).val / 1024, hN⟩
  show i ∈ ((View.whole main_v2_1).slice (win0_4.rect ⟨(i 0).val / 1024, hN⟩)).set
  rw [View.set_slice_whole, Rect.mem_set_unit]
  intro a
  match a with
  | ⟨0, _⟩ => show win0_4.index ⟨(i 0).val / 1024, hN⟩ (0 : Fin 2) * 1024 ≤ (i 0).val ∧ (i 0).val < win0_4.index ⟨(i 0).val / 1024, hN⟩ (0 : Fin 2) * 1024 + 1024; rw [e0]; show (i 0).val / 1024 * 1024 ≤ (i 0).val ∧ (i 0).val < (i 0).val / 1024 * 1024 + 1024; omega
  | ⟨1, _⟩ => show win0_4.index _ (1 : Fin 2) * 64 ≤ (i 1).val ∧ (i 1).val < win0_4.index _ (1 : Fin 2) * 64 + 64; rw [e1]; omega

include hpay1 in
/-- After the call the first projected-feature array is H · W1_0ᵀ. -/
theorem final0_3 (c : Dev nD) : (dat0 V c).arrAt 3 cfg0.N = projArr (V c main_arg0) (V c main_arg3) :=
  (dat0 V c).arrAt_eq_of_cover 3 _ (fun t _ => flushed0_3_eq V hpay1 c t) tile0_3
include hpay2 in
/-- and the second is H · W1_1ᵀ. -/
theorem final0_4 (c : Dev nD) : (dat0 V c).arrAt 4 cfg0.N = projArr (V c main_arg0) (V c main_arg4) :=
  (dat0 V c).arrAt_eq_of_cover 4 _ (fun t _ => flushed0_4_eq V hpay2 c t) tile0_4
end

end Cert.KernelIdeal.Hand

end
-- ==== Proof.KI.Val1.lean ====
/-
  The second Pallas call as a whole-array function.  Its grid has 32 points; point t reads rows
  256·t … 256·t+255 of the two adjacency matrices, and the two projected-feature arrays, the bias row
  and both second-layer weight matrices whole.  For those rows it forms the hidden layer
      H1[i,k] = max(Σ_j A0[i,j]·HW0[j,k] + Σ_j A1[i,j]·HW1[j,k] + b1[k], 0)
  and at once projects it, G_r = H1 · W2_rᵀ, writing rows 256·t … of the two outputs.  Row i of an
  output depends only on row i of the adjacency matrices, and the 32 row blocks tile the outputs.
-/
import proofs.«181728_g36885179138300_cont_8to1_b_1650_11_alg».proof.Proof.KI.R1
import proofs.«181728_g36885179138300_cont_8to1_b_1650_11_alg».proof.Proof.Spec
import proofs.«181728_g36885179138300_cont_8to1_b_1650_11_alg».proof.Proof.KI.Val0
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The hidden layer from the projected features, as a matrix. -/
def hidMat (A0 A1 : S8192x8192.Idx → EReal) (hw0 hw1 : S8192x64.Idx → EReal) (brow : S1x64.Idx → EReal) : Fin 8192 → Fin 64 → EReal :=
  fun p k => max ((mm (mat A0) (mat hw0) p k + mm (mat A1) (mat hw1) p k) + brow (ix2 0 k)) 0
/-- The hidden layer projected by a second-layer weight matrix, as an array. -/
def projHidArr (A0 A1 : S8192x8192.Idx → EReal) (hw0 hw1 : S8192x64.Idx → EReal) (brow : S1x64.Idx → EReal) (W : S32x64.Idx → EReal) : S8192x32.Idx → EReal :=
  fun i => mmT (hidMat A0 A1 hw0 hw1 brow) (mat W) (i 0) (i 1)

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem rd1_A0 (c : Dev nD) (t : Fin cfg1.N) (p : Fin 256) (k : Fin 8192) (r : Fin 8192) (hr : r.val = t.val * 256 + p.val) :
    iblk1 V c 0 t (ix2 p k) = V c main_arg1 (ix2 r k) := by
  obtain ⟨e0, e1, -⟩ := idx_facts1 t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 256 + 1 * p.val = r.val; omega
  | ⟨1, _⟩ => show win1_0.index t (1 : Fin 2) * 8192 + 1 * k.val = k.val; omega

theorem rd1_A1 (c : Dev nD) (t : Fin cfg1.N) (p : Fin 256) (k : Fin 8192) (r : Fin 8192) (hr : r.val = t.val * 256 + p.val) :
    iblk1 V c 1 t (ix2 p k) = V c main_arg2 (ix2 r k) := by
  obtain ⟨-, -, e0, e1, -⟩ := idx_facts1 t
  show V c main_arg2 (((cfg1.win 1).blk t).view.emb (ix2 p k)) = V c main_arg2 (ix2 r k)
  refine congrArg (V c main_arg2) (funext fun a => Fin.ext ?_)
  match a with
  | ⟨0, _⟩ => show win1_1.index t (0 : Fin 2) * 256 + 1 * p.val = r.val; omega
  | ⟨1, _⟩ => show win1_1.index t (1 : Fin 2) * 8192 + 1 * k.val = k.val; omega

theorem rd1_hw0 (c : Dev nD) (t : Fin cfg1.N) (p : Fin 8192) (k : Fin 64) :
    iblk1 V c 2 t (ix2 p k) = V c main_v2_0 (ix2 p k) := by
  obtain ⟨-, -, -, -, e0, e1, -⟩ := idx_facts1 t
  show V c main_v2_0 (((cfg1.win 2).blk t).view.emb (ix2 p k)) = V c main_v2_0 (ix2 p k)
  refine congrArg (V c main_v2_0) (funext fun a => Fin.ext ?_)
  match a with
  | ⟨0, _⟩ => show win1_2.index t (0 : Fin 2) * 8192 + 1 * p.val = p.val; omega
  | ⟨1, _⟩ => show win1_2.index t (1 : Fin 2) * 64 + 1 * k.val = k.val; omega

theorem rd1_hw1 (c : Dev nD) (t : Fin cfg1.N) (p : Fin 8192) (k : Fin 64) :
    iblk1 V c 3 t (ix2 p k) = V c main_v2_1 (ix2 p k) := by
  obtain ⟨-, -, -, -, -, -, e0, e1, -⟩ := idx_facts1 t
  show V c main_v2_1 (((cfg1.win 3).blk t).view.emb (ix2 p k)) = V c main_v2_1 (ix2 p k)
  refine congrArg (V c main_v2_1) (funext fun a => Fin.ext ?_)
  match a with
  | ⟨0, _⟩ => show win1_3.index t (0 : Fin 2) * 8192 + 1 * p.val = p.val; omega
  | ⟨1, _⟩ => show win1_3.index t (1 : Fin 2) * 64 + 1 * k.val = k.val; omega

theorem rd1_b (c : Dev nD) (t : Fin cfg1.N) (p : Fin 1) (k : Fin 64) :
    iblk1 V c 4 t (ix2 p k) = V c main_v0 (ix2 p k) := by
  obtain ⟨-, -, -, -, -, -, -, -, e0, e1, -⟩ := idx_facts1 t
  show V c main_v0 (((cfg1.win 4).blk t).view.emb (ix2 p k)) = V c main_v0 (ix2 p k)
  refine congrArg (V c main_v0) (funext fun a => Fin.ext ?_)
  match a with
  | ⟨0, _⟩ => show win1_4.index t (0 : Fin 2) * 1 + 1 * p.val = p.val; omega
  | ⟨1, _⟩ => show win1_4.index t (1 : Fin 2) * 64 + 1 * k.val = k.val; omega

theorem rd1_W0 (c : Dev nD) (t : Fin cfg1.N) (p : Fin 32) (k : Fin 64) :
    iblk1 V c 5 t (ix2 p k) = V c main_arg6 (ix2 p k) := by
  obtain ⟨-, -, -, -, -, -, -, -, -, -, e0, e1, -⟩ := idx_facts1 t
  show V c main_arg6 (((cfg1.win 5).blk t).view.emb (ix2 p k)) = V c main_arg6 (ix2 p k)
  refine congrArg (V c main_arg6) (funext fun a => Fin.ext ?_)
  match a with
  | ⟨0, _⟩ => show win1_5.index t (0 : Fin 2) * 32 + 1 * p.val = p.val; omega
  | ⟨1, _⟩ => show win1_5.index t (1 : Fin 2) * 64 + 1 * k.val = k.val; omega

theorem rd1_W1 (c : Dev nD) (t : Fin cfg1.N) (p : Fin 32) (k : Fin 64) :
    iblk1 V c 6 t (ix2 p k) = V c main_arg7 (ix2 p k) := by
  obtain ⟨-, -, -, -, -, -, -, -, -, -, -, -, e0, e1, -⟩ := idx_facts1 t
  show V c main_arg7 (((cfg1.win 6).blk t).view.emb (ix2 p k)) = V c main_arg7 (ix2 p k)
  refine congrArg (V c main_arg7) (funext fun a => Fin.ext ?_)
  match a with
  | ⟨0, _⟩ => show win1_6.index t (0 : Fin 2) * 32 + 1 * p.val = p.val; omega
  | ⟨1, _⟩ => show win1_6.index t (1 : Fin 2) * 64 + 1 * k.val = k.val; omega

theorem emb1_7 (t : Fin cfg1.N) (p : Fin 256) (q : Fin 32) (r : Fin 8192) (hr : r.val = t.val * 256 + p.val) :
    ((cfg1.win 7).blk t).view.emb (ix2 p q) = ix2 r q := by
  obtain ⟨-, -, -, -, -, -, -, -, -, -, -, -, -, -, e0, e1, -⟩ := idx_facts1 t
  refine funext fun a => Fin.ext ?_
  match a with
  | ⟨0, _⟩ => show win1_7.index t (0 : Fin 2) * 256 + 1 * p.val = r.val; omega
  | ⟨1, _⟩ => show win1_7.index t (1 : Fin 2) * 32 + 1 * q.val = q.val; omega

theorem emb1_8 (t : Fin cfg1.N) (p : Fin 256) (q : Fin 32) (r : Fin 8192) (hr : r.val = t.val * 256 + p.val) :
    ((cfg1.win 8).blk t).view.emb (ix2 p q) = ix2 r q := by
  obtain ⟨-, -, -, -, -, -, -, -, -, -, -, -, -, -, -, -, e0, e1⟩ := idx_facts1 t
  refine funext fun a => Fin.ext ?_
  match a with
  | ⟨0, _⟩ => show win1_8.index t (0 : Fin 2) * 256 + 1 * p.val = r.val; omega
  | ⟨1, _⟩ => show win1_8.index t (1 : Fin 2) * 32 + 1 * q.val = q.val; omega

section
variable (hpay1 : ∀ (v0 v4 : Vec Ideal S256x8192 .f32) (v1 v5 : Vec Ideal S8192x64 .f32) (v9 : Vec Ideal S1x64 .f32) (p : Fin 256) (q : Fin 64),
    k1_pay1 (F := Ideal) v0 v1 v4 v5 v9 (ix2 p q) = max ((mm (mat v0) (mat v1) p q + mm (mat v4) (mat v5) p q) + v9 (ix2 0 q)) 0)
  (hpay2 : ∀ (v0 v4 : Vec Ideal S256x8192 .f32) (v1 v5 : Vec Ideal S8192x64 .f32) (v9 : Vec Ideal S1x64 .f32) (v15 : Vec Ideal S32x64 .f32) (p : Fin 256) (q : Fin 32),
    k1_pay2 (F := Ideal) v0 v1 v4 v5 v9 v15 (ix2 p q) = mmT (mat (k1_pay1 (F := Ideal) v0 v1 v4 v5 v9)) (mat v15) p q)
  (hpay3 : ∀ (v0 v4 : Vec Ideal S256x8192 .f32) (v1 v5 : Vec Ideal S8192x64 .f32) (v9 : Vec Ideal S1x64 .f32) (v18 : Vec Ideal S32x64 .f32) (p : Fin 256) (q : Fin 32),
    k1_pay3 (F := Ideal) v0 v1 v4 v5 v9 v18 (ix2 p q) = mmT (mat (k1_pay1 (F := Ideal) v0 v1 v4 v5 v9)) (mat v18) p q)

include hpay1 in
/-- The hidden rows a point computes are the rows of the hidden layer it owns. -/
theorem hid_blk (c : Dev nD) (t : Fin cfg1.N) (p : Fin 256) (k : Fin 64) (r : Fin 8192) (hr : r.val = t.val * 256 + p.val) :
    k1_pay1 (F := Ideal) (iblk1 V c 0 t) (iblk1 V c 2 t) (iblk1 V c 1 t) (iblk1 V c 3 t) (iblk1 V c 4 t) (ix2 p k)
      = hidMat (V c main_arg1) (V c main_arg2) (V c main_v2_0) (V c main_v2_1) (V c main_v0) r k := by
  rw [hpay1]
  simp only [hidMat, mm, mat]
  rw [rd1_b V c t 0 k]
  congr 1; congr 1; congr 1
  · refine Finset.sum_congr rfl fun j _ => ?_
    rw [rd1_A0 V c t p j r hr, rd1_hw0 V c t j k]
  · refine Finset.sum_congr rfl fun j _ => ?_
    rw [rd1_A1 V c t p j r hr, rd1_hw1 V c t j k]

include hpay1 hpay2 in
theorem flushed1_7_eq (c : Dev nD) (t : Fin cfg1.N) :
    (dat1 V c).flushed 7 t = ((cfg1.win 7).blk t).view.read (Elt Ideal)
      (projHidArr (V c main_arg1) (V c main_arg2) (V c main_v2_0) (V c main_v2_1) (V c main_v0) (V c main_arg6)) := by
  show (cfg1.win 7).cut (grid1.coords t) ((dat1 V c).after 7 t) = _
  rw [after1_7]
  unfold out1_7
  rw [View.canon_unit_zero hz]
  simp only [View.ld_unit_zero (S := S256x8192) hz, View.ld_unit_zero (S := S8192x64) hz, View.ld_unit_zero (S := S1x64) hz, View.ld_unit_zero (S := S32x64) hz]
  funext j
  obtain ⟨p, q, rfl⟩ : ∃ (p : Fin 256) (q : Fin 32), j = ix2 p q := ⟨j 0, j 1, eq_ix2 j⟩
  have ht32 : t.val < 32 := lt_of_lt_of_eq t.isLt (show cfg1.N = 32 from N_1)
  have hlt : t.val * 256 + p.val < 8192 := by have := p.isLt; omega
  show k1_pay2 (F := Ideal) (iblk1 V c 0 t) (iblk1 V c 2 t) (iblk1 V c 1 t) (iblk1 V c 3 t) (iblk1 V c 4 t) (iblk1 V c 5 t) (ix2 p q)
    = projHidArr (V c main_arg1) (V c main_arg2) (V c main_v2_0) (V c main_v2_1) (V c main_v0) (V c main_arg6) (((cfg1.win 7).blk t).view.emb (ix2 p q))
  rw [hpay2, emb1_7 t p q ⟨_, hlt⟩ rfl]
  simp only [projHidArr, mmT, mat]
  refine Finset.sum_congr rfl fun k _ => ?_
  rw [hid_blk V hpay1 c t p k ⟨_, hlt⟩ rfl, rd1_W0 V c t q k]

include hpay1 hpay3 in
theorem flushed1_8_eq (c : Dev nD) (t : Fin cfg1.N) :
    (dat1 V c).flushed 8 t = ((cfg1.win 8).blk t).view.read (Elt Ideal)
      (projHidArr (V c main_arg1) (V c main_arg2) (V c main_v2_0) (V c main_v2_1) (V c main_v0) (V c main_arg7)) := by
  show (cfg1.win 8).cut (grid1.coords t) ((dat1 V c).after 8 t) = _
  rw [after1_8]
  unfold out1_8
  rw [View.canon_unit_zero hz]
  simp only [View.ld_unit_zero (S := S256x8192) hz, View.ld_unit_zero (S := S8192x64) hz, View.ld_unit_zero (S := S1x64) hz, View.ld_unit_zero (S := S32x64) hz]
  funext j
  obtain ⟨p, q, rfl⟩ : ∃ (p : Fin 256) (q : Fin 32), j = ix2 p q := ⟨j 0, j 1, eq_ix2 j⟩
  have ht32 : t.val < 32 := lt_of_lt_of_eq t.isLt (show cfg1.N = 32 from N_1)
  have hlt : t.val * 256 + p.val < 8192 := by have := p.isLt; omega
  show k1_pay3 (F := Ideal) (iblk1 V c 0 t) (iblk1 V c 2 t) (iblk1 V c 1 t) (iblk1 V c 3 t) (iblk1 V c 4 t) (iblk1 V c 6 t) (ix2 p q)
    = projHidArr (V c main_arg1) (V c main_arg2) (V c main_v2_0) (V c main_v2_1) (V c main_v0) (V c main_arg7) (((cfg1.win 8).blk t).view.emb (ix2 p q))
  rw [hpay3, emb1_8 t p q ⟨_, hlt⟩ rfl]
  simp only [projHidArr, mmT, mat]
  refine Finset.sum_congr rfl fun k _ => ?_
  rw [hid_blk V hpay1 c t p k ⟨_, hlt⟩ rfl, rd1_W1 V c t q k]

theorem tile1_7 (i : S8192x32.Idx) : ∃ t : Fin cfg1.N, (cfg1.win 7).flush t = true ∧ i ∈ ((cfg1.win 7).blk t).view.set := by
  have hi0 : (i 0).val < 8192 := (i 0).isLt
  have hi1 : (i 1).val < 32 := (i 1).isLt
  have hN : (i 0).val / 256 < cfg1.N := by rw [show cfg1.N = 32 from N_1]; omega
  refine ⟨⟨(i 0).val / 256, hN⟩, flush1_7 _, ?_⟩
  obtain ⟨-, -, -, -, -, -, -, -, -, -, -, -, -, -, e0, e1, -⟩ := idx_facts1 ⟨(i 0).val / 256, hN⟩
  show i ∈ ((View.whole main_v3_0).slice (win1_7.rect ⟨(i 0).val / 256, hN⟩)).set
  rw [View.set_slice_whole, Rect.mem_set_unit]
  intro a
  match a with
  | ⟨0, _⟩ => show win1_7.index ⟨(i 0).val / 256, hN⟩ (0 : Fin 2) * 256 ≤ (i 0).val ∧ (i 0).val < win1_7.index ⟨(i 0).val / 256, hN⟩ (0 : Fin 2) * 256 + 256; rw [e0]; show (i 0).val / 256 * 256 ≤ (i 0).val ∧ (i 0).val < (i 0).val / 256 * 256 + 256; omega
  | ⟨1, _⟩ => show win1_7.index _ (1 : Fin 2) * 32 ≤ (i 1).val ∧ (i 1).val < win1_7.index _ (1 : Fin 2) * 32 + 32; rw [e1]; omega

theorem tile1_8 (i : S8192x32.Idx) : ∃ t : Fin cfg1.N, (cfg1.win 8).flush t = true ∧ i ∈ ((cfg1.win 8).blk t).view.set := by
  have hi0 : (i 0).val < 8192 := (i 0).isLt
  have hi1 : (i 1).val < 32 := (i 1).isLt
  have hN : (i 0).val / 256 < cfg1.N := by rw [show cfg1.N = 32 from N_1]; omega
  refine ⟨⟨(i 0).val / 256, hN⟩, flush1_8 _, ?_⟩
  obtain ⟨-, -, -, -, -, -, -, -, -, -, -, -, -, -, -, -, e0, e1⟩ := idx_facts1 ⟨(i 0).val / 256, hN⟩
  show i ∈ ((View.whole main_v3_1).slice (win1_8.rect ⟨(i 0).val / 256, hN⟩)).set
  rw [View.set_slice_whole, Rect.mem_set_unit]
  intro a
  match a with
  | ⟨0, _⟩ => show win1_8.index ⟨(i 0).val / 256, hN⟩ (0 : Fin 2) * 256 ≤ (i 0).val ∧ (i 0).val < win1_8.index ⟨(i 0).val / 256, hN⟩ (0 : Fin 2) * 256 + 256; rw [e0]; show (i 0).val / 256 * 256 ≤ (i 0).val ∧ (i 0).val < (i 0).val / 256 * 256 + 256; omega
  | ⟨1, _⟩ => show win1_8.index _ (1 : Fin 2) * 32 ≤ (i 1).val ∧ (i 1).val < win1_8.index _ (1 : Fin 2) * 32 + 32; rw [e1]; omega

include hpay1 hpay2 in
/-- After the call the first projected-hidden array is H1 · W2_0ᵀ. -/
theorem final1_7 (c : Dev nD) : (dat1 V c).arrAt 7 cfg1.N
    = projHidArr (V c main_arg1) (V c main_arg2) (V c main_v2_0) (V c main_v2_1) (V c main_v0) (V c main_arg6) :=
  (dat1 V c).arrAt_eq_of_cover 7 _ (fun t _ => flushed1_7_eq V hpay1 hpay2 c t) tile1_7
include hpay1 hpay3 in
/-- and the second is H1 · W2_1ᵀ. -/
theorem final1_8 (c : Dev nD) : (dat1 V c).arrAt 8 cfg1.N
    = projHidArr (V c main_arg1) (V c main_arg2) (V c main_v2_0) (V c main_v2_1) (V c main_v0) (V c main_arg7) :=
  (dat1 V c).arrAt_eq_of_cover 8 _ (fun t _ => flushed1_8_eq V hpay1 hpay3 c t) tile1_8
end

end Cert.KernelIdeal.Hand

end
-- ==== Proof.KI.Val2.lean ====
/-
  The third Pallas call as a whole-array function.  Point t of its 32 reads rows 256·t … 256·t+255
  of the two adjacency matrices, and the two projected-hidden arrays and the second bias row whole,
  and writes the same rows of the embedding:
      Z[i,k] = Σ_j A0[i,j]·G0[j,k] + Σ_j A1[i,j]·G1[j,k] + b2[k].
  The 32 row blocks tile the embedding array.
-/
import proofs.«181728_g36885179138300_cont_8to1_b_1650_11_alg».proof.Proof.KI.R2
import proofs.«181728_g36885179138300_cont_8to1_b_1650_11_alg».proof.Proof.Spec
import proofs.«181728_g36885179138300_cont_8to1_b_1650_11_alg».proof.Proof.KI.Val0
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The embedding from the projected hidden features, as an array. -/
def embArr (A0 A1 : S8192x8192.Idx → EReal) (g0 g1 : S8192x32.Idx → EReal) (brow : S1x32.Idx → EReal) : S8192x32.Idx → EReal :=
  fun i => (mm (mat A0) (mat g0) (i 0) (i 1) + mm (mat A1) (mat g1) (i 0) (i 1)) + brow (ix2 0 (i 1))

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem rd2_A0 (c : Dev nD) (t : Fin cfg2.N) (p : Fin 256) (k : Fin 8192) (r : Fin 8192) (hr : r.val = t.val * 256 + p.val) :
    iblk2 V c 0 t (ix2 p k) = V c main_arg1 (ix2 r k) := by
  obtain ⟨e0, e1, -⟩ := idx_facts2 t
  show V c main_arg1 (((cfg2.win 0).blk t).view.emb (ix2 p k)) = V c main_arg1 (ix2 r k)
  refine congrArg (V c main_arg1) (funext fun a => Fin.ext ?_)
  match a with
  | ⟨0, _⟩ => show win2_0.index t (0 : Fin 2) * 256 + 1 * p.val = r.val; omega
  | ⟨1, _⟩ => show win2_0.index t (1 : Fin 2) * 8192 + 1 * k.val = k.val; omega

theorem rd2_A1 (c : Dev nD) (t : Fin cfg2.N) (p : Fin 256) (k : Fin 8192) (r : Fin 8192) (hr : r.val = t.val * 256 + p.val) :
    iblk2 V c 1 t (ix2 p k) = V c main_arg2 (ix2 r k) := by
  obtain ⟨-, -, e0, e1, -⟩ := idx_facts2 t
  show V c main_arg2 (((cfg2.win 1).blk t).view.emb (ix2 p k)) = V c main_arg2 (ix2 r k)
  refine congrArg (V c main_arg2) (funext fun a => Fin.ext ?_)
  match a with
  | ⟨0, _⟩ => show win2_1.index t (0 : Fin 2) * 256 + 1 * p.val = r.val; omega
  | ⟨1, _⟩ => show win2_1.index t (1 : Fin 2) * 8192 + 1 * k.val = k.val; omega

theorem rd2_g0 (c : Dev nD) (t : Fin cfg2.N) (p : Fin 8192) (k : Fin 32) :
    iblk2 V c 2 t (ix2 p k) = V c main_v3_0 (ix2 p k) := by
  obtain ⟨-, -, -, -, e0, e1, -⟩ := idx_facts2 t
  show V c main_v3_0 (((cfg2.win 2).blk t).view.emb (ix2 p k)) = V c main_v3_0 (ix2 p k)
  refine congrArg (V c main_v3_0) (funext fun a => Fin.ext ?_)
  match a with
  | ⟨0, _⟩ => show win2_2.index t (0 : Fin 2) * 8192 + 1 * p.val = p.val; omega
  | ⟨1, _⟩ => show win2_2.index t (1 : Fin 2) * 32 + 1 * k.val = k.val; omega

theorem rd2_g1 (c : Dev nD) (t : Fin cfg2.N) (p : Fin 8192) (k : Fin 32) :
    iblk2 V c 3 t (ix2 p k) = V c main_v3_1 (ix2 p k) := by
  obtain ⟨-, -, -, -, -, -, e0, e1, -⟩ := idx_facts2 t
  show V c main_v3_1 (((cfg2.win 3).blk t).view.emb (ix2 p k)) = V c main_v3_1 (ix2 p k)
  refine congrArg (V c main_v3_1) (funext fun a => Fin.ext ?_)
  match a with
  | ⟨0, _⟩ => show win2_3.index t (0 : Fin 2) * 8192 + 1 * p.val = p.val; omega
  | ⟨1, _⟩ => show win2_3.index t (1 : Fin 2) * 32 + 1 * k.val = k.val; omega

theorem rd2_b (c : Dev nD) (t : Fin cfg2.N) (p : Fin 1) (k : Fin 32) :
    iblk2 V c 4 t (ix2 p k) = V c main_v1 (ix2 p k) := by
  obtain ⟨-, -, -, -, -, -, -, -, e0, e1, -⟩ := idx_facts2 t
  show V c main_v1 (((cfg2.win 4).blk t).view.emb (ix2 p k)) = V c main_v1 (ix2 p k)
  refine congrArg (V c main_v1) (funext fun a => Fin.ext ?_)
  match a with
  | ⟨0, _⟩ => show win2_4.index t (0 : Fin 2) * 1 + 1 * p.val = p.val; omega
  | ⟨1, _⟩ => show win2_4.index t (1 : Fin 2) * 32 + 1 * k.val = k.val; omega

theorem emb2_5 (t : Fin cfg2.N) (p : Fin 256) (q : Fin 32) (r : Fin 8192) (hr : r.val = t.val * 256 + p.val) :
    ((cfg2.win 5).blk t).view.emb (ix2 p q) = ix2 r q := by
  obtain ⟨-, -, -, -, -, -, -, -, -, -, e0, e1⟩ := idx_facts2 t
  refine funext fun a => Fin.ext ?_
  match a with
  | ⟨0, _⟩ => show win2_5.index t (0 : Fin 2) * 256 + 1 * p.val = r.val; omega
  | ⟨1, _⟩ => show win2_5.index t (1 : Fin 2) * 32 + 1 * q.val = q.val; omega

section
variable (hpay : ∀ (v0 v4 : Vec Ideal S256x8192 .f32) (v1 v5 : Vec Ideal S8192x32 .f32) (v9 : Vec Ideal S1x32 .f32) (p : Fin 256) (q : Fin 32),
    k2_pay1 (F := Ideal) v0 v1 v4 v5 v9 (ix2 p q) = (mm (mat v0) (mat v1) p q + mm (mat v4) (mat v5) p q) + v9 (ix2 0 q))

include hpay in
theorem flushed2_5_eq (c : Dev nD) (t : Fin cfg2.N) :
    (dat2 V c).flushed 5 t = ((cfg2.win 5).blk t).view.read (Elt Ideal)
      (embArr (V c main_arg1) (V c main_arg2) (V c main_v3_0) (V c main_v3_1) (V c main_v1)) := by
  show (cfg2.win 5).cut (grid2.coords t) ((dat2 V c).after 5 t) = _
  rw [after2_5]
  unfold out2_5
  rw [View.canon_unit_zero hz]
  simp only [View.ld_unit_zero (S := S256x8192) hz, View.ld_unit_zero (S := S8192x32) hz, View.ld_unit_zero (S := S1x32) hz]
  funext j
  obtain ⟨p, q, rfl⟩ : ∃ (p : Fin 256) (q : Fin 32), j = ix2 p q := ⟨j 0, j 1, eq_ix2 j⟩
  have ht32 : t.val < 32 := lt_of_lt_of_eq t.isLt (show cfg2.N = 32 from N_2)
  have hlt : t.val * 256 + p.val < 8192 := by have := p.isLt; omega
  show k2_pay1 (F := Ideal) (iblk2 V c 0 t) (iblk2 V c 2 t) (iblk2 V c 1 t) (iblk2 V c 3 t) (iblk2 V c 4 t) (ix2 p q)
    = embArr (V c main_arg1) (V c main_arg2) (V c main_v3_0) (V c main_v3_1) (V c main_v1) (((cfg2.win 5).blk t).view.emb (ix2 p q))
  rw [hpay, emb2_5 t p q ⟨_, hlt⟩ rfl]
  simp only [embArr, mm, mat]
  rw [rd2_b V c t 0 q]
  congr 1; congr 1
  · refine Finset.sum_congr rfl fun j _ => ?_
    rw [rd2_A0 V c t p j ⟨_, hlt⟩ rfl, rd2_g0 V c t j q]
  · refine Finset.sum_congr rfl fun j _ => ?_
    rw [rd2_A1 V c t p j ⟨_, hlt⟩ rfl, rd2_g1 V c t j q]

theorem tile2_5 (i : S8192x32.Idx) : ∃ t : Fin cfg2.N, (cfg2.win 5).flush t = true ∧ i ∈ ((cfg2.win 5).blk t).view.set := by
  have hi0 : (i 0).val < 8192 := (i 0).isLt
  have hi1 : (i 1).val < 32 := (i 1).isLt
  have hN : (i 0).val / 256 < cfg2.N := by rw [show cfg2.N = 32 from N_2]; omega
  refine ⟨⟨(i 0).val / 256, hN⟩, flush2_5 _, ?_⟩
  obtain ⟨-, -, -, -, -, -, -, -, -, -, e0, e1⟩ := idx_facts2 ⟨(i 0).val / 256, hN⟩
  show i ∈ ((View.whole main_v4).slice (win2_5.rect ⟨(i 0).val / 256, hN⟩)).set
  rw [View.set_slice_whole, Rect.mem_set_unit]
  intro a
  match a with
  | ⟨0, _⟩ => show win2_5.index ⟨(i 0).val / 256, hN⟩ (0 : Fin 2) * 256 ≤ (i 0).val ∧ (i 0).val < win2_5.index ⟨(i 0).val / 256, hN⟩ (0 : Fin 2) * 256 + 256; rw [e0]; show (i 0).val / 256 * 256 ≤ (i 0).val ∧ (i 0).val < (i 0).val / 256 * 256 + 256; omega
  | ⟨1, _⟩ => show win2_5.index _ (1 : Fin 2) * 32 ≤ (i 1).val ∧ (i 1).val < win2_5.index _ (1 : Fin 2) * 32 + 32; rw [e1]; omega

include hpay in
/-- After the call the embedding array is A0·G0 + A1·G1 + b2. -/
theorem final2_5 (c : Dev nD) : (dat2 V c).arrAt 5 cfg2.N
    = embArr (V c main_arg1) (V c main_arg2) (V c main_v3_0) (V c main_v3_1) (V c main_v1) :=
  (dat2 V c).arrAt_eq_of_cover 5 _ (fun t _ => flushed2_5_eq V hpay c t) tile2_5
end

end Cert.KernelIdeal.Hand

end
-- ==== Proof.KI.Val3.lean ====
/-
  The last Pallas call as a whole-array function.  Point t of its 32 reads rows 256·t … 256·t+255 of
  the embedding Z through one window and the whole of Z through another, and writes the same rows of
  the decoder output:  Â[i,j] = Σ_k Z[i,k]·Z[j,k].  The 32 row blocks tile the output array.
-/
import proofs.«181728_g36885179138300_cont_8to1_b_1650_11_alg».proof.Proof.KI.R3
import proofs.«181728_g36885179138300_cont_8to1_b_1650_11_alg».proof.Proof.Spec
import proofs.«181728_g36885179138300_cont_8to1_b_1650_11_alg».proof.Proof.KI.Val0
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The inner-product decoder of an embedding, as an array. -/
def decArr (z : S8192x32.Idx → EReal) : S8192x8192.Idx → EReal :=
  fun i => dec (mat z) (i 0) (i 1)

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem rd3_zrow (c : Dev nD) (t : Fin cfg3.N) (p : Fin 256) (k : Fin 32) (r : Fin 8192) (hr : r.val = t.val * 256 + p.val) :
    iblk3 V c 0 t (ix2 p k) = V c main_v4 (ix2 r k) := by
  obtain ⟨e0, e1, -⟩ := idx_facts3 t
  show V c main_v4 (((cfg3.win 0).blk t).view.emb (ix2 p k)) = V c main_v4 (ix2 r k)
  refine congrArg (V c main_v4) (funext fun a => Fin.ext ?_)
  match a with
  | ⟨0, _⟩ => show win3_0.index t (0 : Fin 2) * 256 + 1 * p.val = r.val; omega
  | ⟨1, _⟩ => show win3_0.index t (1 : Fin 2) * 32 + 1 * k.val = k.val; omega

theorem rd3_z (c : Dev nD) (t : Fin cfg3.N) (p : Fin 8192) (k : Fin 32) :
    iblk3 V c 1 t (ix2 p k) = V c main_v4 (ix2 p k) := by
  obtain ⟨-, -, e0, e1, -⟩ := idx_facts3 t
  show V c main_v4 (((cfg3.win 1).blk t).view.emb (ix2 p k)) = V c main_v4 (ix2 p k)
  refine congrArg (V c main_v4) (funext fun a => Fin.ext ?_)
  match a with
  | ⟨0, _⟩ => show win3_1.index t (0 : Fin 2) * 8192 + 1 * p.val = p.val; omega
  | ⟨1, _⟩ => show win3_1.index t (1 : Fin 2) * 32 + 1 * k.val = k.val; omega

theorem emb3_2 (t : Fin cfg3.N) (p : Fin 256) (q : Fin 8192) (r : Fin 8192) (hr : r.val = t.val * 256 + p.val) :
    ((cfg3.win 2).blk t).view.emb (ix2 p q) = ix2 r q := by
  obtain ⟨-, -, -, -, e0, e1⟩ := idx_facts3 t
  refine funext fun a => Fin.ext ?_
  match a with
  | ⟨0, _⟩ => show win3_2.index t (0 : Fin 2) * 256 + 1 * p.val = r.val; omega
  | ⟨1, _⟩ => show win3_2.index t (1 : Fin 2) * 8192 + 1 * q.val = q.val; omega

section
variable (hpay : ∀ (v0 : Vec Ideal S256x32 .f32) (v2 : Vec Ideal S8192x32 .f32) (p : Fin 256) (q : Fin 8192),
    k3_pay1 (F := Ideal) v0 v2 (ix2 p q) = mmT (mat v0) (mat v2) p q)

include hpay in
theorem flushed3_2_eq (c : Dev nD) (t : Fin cfg3.N) :
    (dat3 V c).flushed 2 t = ((cfg3.win 2).blk t).view.read (Elt Ideal) (decArr (V c main_v4)) := by
  show (cfg3.win 2).cut (grid3.coords t) ((dat3 V c).after 2 t) = _
  rw [after3_2]
  unfold out3_2
  rw [View.canon_unit_zero hz]
  simp only [View.ld_unit_zero (S := S256x32) hz, View.ld_unit_zero (S := S8192x32) hz]
  funext j
  obtain ⟨p, q, rfl⟩ : ∃ (p : Fin 256) (q : Fin 8192), j = ix2 p q := ⟨j 0, j 1, eq_ix2 j⟩
  have ht32 : t.val < 32 := lt_of_lt_of_eq t.isLt (show cfg3.N = 32 from N_3)
  have hlt : t.val * 256 + p.val < 8192 := by have := p.isLt; omega
  show k3_pay1 (F := Ideal) (iblk3 V c 0 t) (iblk3 V c 1 t) (ix2 p q)
    = decArr (V c main_v4) (((cfg3.win 2).blk t).view.emb (ix2 p q))
  rw [hpay, emb3_2 t p q ⟨_, hlt⟩ rfl]
  simp only [decArr, dec, mmT, mat]
  refine Finset.sum_congr rfl fun k _ => ?_
  rw [rd3_zrow V c t p k ⟨_, hlt⟩ rfl, rd3_z V c t q k]

theorem tile3_2 (i : S8192x8192.Idx) : ∃ t : Fin cfg3.N, (cfg3.win 2).flush t = true ∧ i ∈ ((cfg3.win 2).blk t).view.set := by
  have hi0 : (i 0).val < 8192 := (i 0).isLt
  have hi1 : (i 1).val < 8192 := (i 1).isLt
  have hN : (i 0).val / 256 < cfg3.N := by rw [show cfg3.N = 32 from N_3]; omega
  refine ⟨⟨(i 0).val / 256, hN⟩, flush3_2 _, ?_⟩
  obtain ⟨-, -, -, -, e0, e1⟩ := idx_facts3 ⟨(i 0).val / 256, hN⟩
  show i ∈ ((View.whole main_v5).slice (win3_2.rect ⟨(i 0).val / 256, hN⟩)).set
  rw [View.set_slice_whole, Rect.mem_set_unit]
  intro a
  match a with
  | ⟨0, _⟩ => show win3_2.index ⟨(i 0).val / 256, hN⟩ (0 : Fin 2) * 256 ≤ (i 0).val ∧ (i 0).val < win3_2.index ⟨(i 0).val / 256, hN⟩ (0 : Fin 2) * 256 + 256; rw [e0]; show (i 0).val / 256 * 256 ≤ (i 0).val ∧ (i 0).val < (i 0).val / 256 * 256 + 256; omega
  | ⟨1, _⟩ => show win3_2.index _ (1 : Fin 2) * 8192 ≤ (i 1).val ∧ (i 1).val < win3_2.index _ (1 : Fin 2) * 8192 + 8192; rw [e1]; omega

include hpay in
/-- After the call the output array is Z·Zᵀ. -/
theorem final3_2 (c : Dev nD) : (dat3 V c).arrAt 2 cfg3.N = decArr (V c main_v4) :=
  (dat3 V c).arrAt_eq_of_cover 2 _ (fun t _ => flushed3_2_eq V hpay c t) tile3_2
end

end Cert.KernelIdeal.Hand

end
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.Pay.lean ====
/-
  The values the four kernel bodies store, read at a row and a column, on the extended reals.

  Each stored value is a pure term over the arrays the body loaded.  Read at the entry (p, q):

  * a product contracting the columns of both factors into a zero accumulator is  Σ_k A[p,k]·B[q,k]  (the product
    against the transposed right factor), and one contracting the left factor's columns with the right factor's
    rows is  Σ_k A[p,k]·B[k,q]  (the plain product): the accumulator contributes zero;
  * a cast of an array to its own shape is the identity;
  * a bias row [1, n] broadcast over the rows reads its one row at column q;
  * addition and the maximum against the zero scalar act entry by entry, and the zero word is the real 0.

  So the projection kernel stores the two products  H·Wᵀ ; the first aggregation kernel stores the hidden layer
  max(A0·P0 + A1·P1 + b1, 0)  multiplied against each transposed second-layer weight; the second aggregation
  kernel stores  A0·Q0 + A1·Q1 + b2 ; the decoder stores  Z·Zᵀ.  Every step is a rewrite at a symbolic row and
  column: no index set is ever listed.
-/
import proofs.«181728_g36885179138300_cont_8to1_b_1650_11_alg».proof.Proof.Gen.KernelIdeal.Skeleton
import proofs.«181728_g36885179138300_cont_8to1_b_1650_11_alg».proof.Proof.Spec
import proofs.«181728_g36885179138300_cont_8to1_b_1650_11_alg».proof.Proof.LibTransposedMatmul
import proofs.«181728_g36885179138300_cont_8to1_b_1650_11_alg».proof.Proof.LibPlainMatmul
import Idealize.ShloMosaic.Lib.ValueLayout
import Idealize.ShloMosaic.PureOps.Ideal.Laws

noncomputable section

open scoped BigOperators

namespace Cert.KernelIdeal.Pay

open Cert.KernelIdeal Cert.KernelIdeal.Gen Cert.Spec Idealize.ShloMosaic Idealize.ShloMosaic.ValueIdx

/-! ## The projection kernel: two products against transposed weights -/

/-- The first projection at (p, q): Σ_k H[p,k]·W[q,k]. -/
theorem k0_pay1_apply (v0 : Vec Ideal S1024x128 .f32) (v1 : Vec Ideal S64x128 .f32) (p : Fin 1024) (q : Fin 64) :
    k0_pay1 (F := Ideal) v0 v1 (ix2 p q) = mmT (mat v0) (mat v1) p q := by
  unfold k0_pay1
  exact Cert.Lib.TransposedMatmul.matmul_zero_apply dot_S1024x128_S64x128_S1024x64_1_1_0_0_n_n rfl rfl rfl rfl rfl rfl
    none v0 v1 p q

/-- The second projection at (p, q): Σ_k H[p,k]·W[q,k]. -/
theorem k0_pay2_apply (v0 : Vec Ideal S1024x128 .f32) (v4 : Vec Ideal S64x128 .f32) (p : Fin 1024) (q : Fin 64) :
    k0_pay2 (F := Ideal) v0 v4 (ix2 p q) = mmT (mat v0) (mat v4) p q := by
  unfold k0_pay2
  exact Cert.Lib.TransposedMatmul.matmul_zero_apply dot_S1024x128_S64x128_S1024x64_1_1_0_0_n_n rfl rfl rfl rfl rfl rfl
    none v0 v4 p q

/-! ## The first aggregation kernel: the hidden layer, and its two products against transposed weights -/

/-- The hidden layer at (p, q): the two aggregated products and the bias row's entry, clamped below at zero. -/
theorem k1_pay1_apply (v0 v4 : Vec Ideal S256x8192 .f32) (v1 v5 : Vec Ideal S8192x64 .f32) (v9 : Vec Ideal S1x64 .f32)
    (p : Fin 256) (q : Fin 64) :
    k1_pay1 (F := Ideal) v0 v1 v4 v5 v9 (ix2 p q)
      = max ((mm (mat v0) (mat v1) p q + mm (mat v4) (mat v5) p q) + v9 (ix2 0 q)) 0 := by
  unfold k1_pay1
  -- a cast of an array to its own shape is the identity
  have e1 : shapeCast S8192x64 v1 shapeCasts_S8192x64_S8192x64 = v1 := shapeCast_self v1 _
  have e5 : shapeCast S8192x64 v5 shapeCasts_S8192x64_S8192x64 = v5 := shapeCast_self v5 _
  have e9 : shapeCast S1x64 v9 shapeCasts_S1x64_S1x64 = v9 := shapeCast_self v9 _
  -- the two plain products, the bias row read at its one row, and the zero word
  have m1 := Cert.Lib.PlainMatmul.matmul_zero_apply (φ₁ := .f32) (φ₂ := .f32)
    dot_S256x8192_S8192x64_S256x64_1_0_0_1_n_n rfl rfl rfl rfl rfl rfl none v0 v1 p q
  have m2 := Cert.Lib.PlainMatmul.matmul_zero_apply (φ₁ := .f32) (φ₂ := .f32)
    dot_S256x8192_S8192x64_S256x64_1_0_0_1_n_n rfl rfl rfl rfl rfl rfl none v4 v5 p q
  have b := broadcastTo_1b_ab_apply v9 broadcasts_S1x64_S256x64 p q
  rw [e1, e5, e9]
  exact congrArg₂ max (congrArg₂ (· + ·) (congrArg₂ (· + ·) m1 m2) b) Ideal.ofBits_zero_f32

/-- The hidden layer against the first transposed second-layer weight at (p, q): Σ_k H1[p,k]·W[q,k]. -/
theorem k1_pay2_apply (v0 v4 : Vec Ideal S256x8192 .f32) (v1 v5 : Vec Ideal S8192x64 .f32) (v9 : Vec Ideal S1x64 .f32)
    (v15 : Vec Ideal S32x64 .f32) (p : Fin 256) (q : Fin 32) :
    k1_pay2 (F := Ideal) v0 v1 v4 v5 v9 v15 (ix2 p q)
      = mmT (mat (k1_pay1 (F := Ideal) v0 v1 v4 v5 v9)) (mat v15) p q := by
  unfold k1_pay2
  exact Cert.Lib.TransposedMatmul.matmul_zero_apply (φ₁ := .f32) (φ₂ := .f32)
    dot_S256x64_S32x64_S256x32_1_1_0_0_n_n rfl rfl rfl rfl rfl rfl none (k1_pay1 (F := Ideal) v0 v1 v4 v5 v9) v15 p q

/-- The hidden layer against the second transposed second-layer weight at (p, q): Σ_k H1[p,k]·W[q,k]. -/
theorem k1_pay3_apply (v0 v4 : Vec Ideal S256x8192 .f32) (v1 v5 : Vec Ideal S8192x64 .f32) (v9 : Vec Ideal S1x64 .f32)
    (v18 : Vec Ideal S32x64 .f32) (p : Fin 256) (q : Fin 32) :
    k1_pay3 (F := Ideal) v0 v1 v4 v5 v9 v18 (ix2 p q)
      = mmT (mat (k1_pay1 (F := Ideal) v0 v1 v4 v5 v9)) (mat v18) p q := by
  unfold k1_pay3
  exact Cert.Lib.TransposedMatmul.matmul_zero_apply (φ₁ := .f32) (φ₂ := .f32)
    dot_S256x64_S32x64_S256x32_1_1_0_0_n_n rfl rfl rfl rfl rfl rfl none (k1_pay1 (F := Ideal) v0 v1 v4 v5 v9) v18 p q

/-! ## The second aggregation kernel: the embedding -/

/-- The embedding at (p, q): the two aggregated products and the bias row's entry. -/
theorem k2_pay1_apply (v0 v4 : Vec Ideal S256x8192 .f32) (v1 v5 : Vec Ideal S8192x32 .f32) (v9 : Vec Ideal S1x32 .f32)
    (p : Fin 256) (q : Fin 32) :
    k2_pay1 (F := Ideal) v0 v1 v4 v5 v9 (ix2 p q)
      = (mm (mat v0) (mat v1) p q + mm (mat v4) (mat v5) p q) + v9 (ix2 0 q) := by
  unfold k2_pay1
  -- a cast of an array to its own shape is the identity
  have e1 : shapeCast S8192x32 v1 shapeCasts_S8192x32_S8192x32 = v1 := shapeCast_self v1 _
  have e5 : shapeCast S8192x32 v5 shapeCasts_S8192x32_S8192x32 = v5 := shapeCast_self v5 _
  have e9 : shapeCast S1x32 v9 shapeCasts_S1x32_S1x32 = v9 := shapeCast_self v9 _
  -- the two plain products and the bias row read at its one row
  have m1 := Cert.Lib.PlainMatmul.matmul_zero_apply (φ₁ := .f32) (φ₂ := .f32)
    dot_S256x8192_S8192x32_S256x32_1_0_0_1_n_n rfl rfl rfl rfl rfl rfl none v0 v1 p q
  have m2 := Cert.Lib.PlainMatmul.matmul_zero_apply (φ₁ := .f32) (φ₂ := .f32)
    dot_S256x8192_S8192x32_S256x32_1_0_0_1_n_n rfl rfl rfl rfl rfl rfl none v4 v5 p q
  have b := broadcastTo_1b_ab_apply v9 broadcasts_S1x32_S256x32 p q
  rw [e1, e5, e9]
  exact congrArg₂ (· + ·) (congrArg₂ (· + ·) m1 m2) b

/-! ## The decoder: the embedding against its own transpose -/

/-- The decoder at (p, q): Σ_k Z[p,k]·Z'[q,k]. -/
theorem k3_pay1_apply (v0 : Vec Ideal S256x32 .f32) (v2 : Vec Ideal S8192x32 .f32) (p : Fin 256) (q : Fin 8192) :
    k3_pay1 (F := Ideal) v0 v2 (ix2 p q) = mmT (mat v0) (mat v2) p q := by
  unfold k3_pay1
  -- a cast of an array to its own shape is the identity
  have e0 : shapeCast S256x32 v0 shapeCasts_S256x32_S256x32 = v0 := shapeCast_self v0 _
  have e2 : shapeCast S8192x32 v2 shapeCasts_S8192x32_S8192x32 = v2 := shapeCast_self v2 _
  rw [e0, e2]
  exact Cert.Lib.TransposedMatmul.matmul_zero_apply (φ₁ := .f32) (φ₂ := .f32)
    dot_S256x32_S8192x32_S256x8192_1_1_0_0_n_n rfl rfl rfl rfl rfl rfl none v0 v2 p q

end Cert.KernelIdeal.Pay

end
-- ==== Proof.KI.Value.lean ====
/-
  The kernel program's two results as functions of its arguments, on the extended reals.

  Reading the boundary contents backwards: the embedding array is what the third call leaves,
  A0·G0 + A1·G1 + b2 of the arrays it was entered with; of those, G0 and G1 are what the second call
  leaves, H1·W2_rᵀ with H1 = max(A0·HW0 + A1·HW1 + b1, 0); HW0 and HW1 are what the first call
  leaves, H·W1_rᵀ; the adjacency matrices, the weights and H reach every call as launched; and the
  two bias rows are the bias vectors laid along a leading unit axis.  Composed, the embedding is the
  "project first" form `Cert.Spec.Zp` of the arguments, and the decoder output is Z·Zᵀ of it.
-/
import proofs.«181728_g36885179138300_cont_8to1_b_1650_11_alg».proof.Proof.KI.Run
import proofs.«181728_g36885179138300_cont_8to1_b_1650_11_alg».proof.Proof.KI.Val0
import proofs.«181728_g36885179138300_cont_8to1_b_1650_11_alg».proof.Proof.KI.Val1
import proofs.«181728_g36885179138300_cont_8to1_b_1650_11_alg».proof.Proof.KI.Val2
import proofs.«181728_g36885179138300_cont_8to1_b_1650_11_alg».proof.Proof.KI.Val3
import proofs.«181728_g36885179138300_cont_8to1_b_1650_11_alg».proof.Proof.Pay
import proofs.«181728_g36885179138300_cont_8to1_b_1650_11_alg».proof.Proof.Spec
import Idealize.ShloMosaic.Lib.ValueLayout
import Idealize.ShloMosaic.Lib.StableHlo.Run

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem Idealize.ShloMosaic.StableHlo
open Idealize.ShloMosaic.Pipeline (Dat Cfg Window)

/-! ## The network as a composition of the four calls' array functions -/

/-- The three array functions composed are the "project first" embedding; the bias rows enter through the only
    entries the calls read, row 0. -/
theorem net_eq (H : S8192x128.Idx → EReal) (A0 A1 : S8192x8192.Idx → EReal) (W10 W11 : S64x128.Idx → EReal)
    (b1row : S1x64.Idx → EReal) (b1 : S64.Idx → EReal) (hb1 : ∀ k : Fin 64, b1row (ix2 0 k) = b1 (ix1 k))
    (W20 W21 : S32x64.Idx → EReal) (b2row : S1x32.Idx → EReal) (b2 : S32.Idx → EReal) (hb2 : ∀ k : Fin 32, b2row (ix2 0 k) = b2 (ix1 k)) :
    embArr A0 A1 (projHidArr A0 A1 (projArr H W10) (projArr H W11) b1row W20)
        (projHidArr A0 A1 (projArr H W10) (projArr H W11) b1row W21) b2row
      = fun i => Zp (mat H) (mat A0) (mat A1) (mat W10) (mat W11) (vec b1) (mat W20) (mat W21) (vec b2) (i 0) (i 1) := by
  have hh : hidMat A0 A1 (projArr H W10) (projArr H W11) b1row = H1p (mat H) (mat A0) (mat A1) (mat W10) (mat W11) (vec b1) := by
    funext p k
    simp only [hidMat, H1p, vec, hb1]
    rfl
  funext i
  obtain ⟨p, q, rfl⟩ : ∃ (p : Fin 8192) (q : Fin 32), i = ix2 p q := ⟨i 0, i 1, eq_ix2 i⟩
  simp only [embArr, Zp, vec]
  rw [← hh]
  exact congrArg₂ (· + ·) rfl (hb2 q)

/-- The matrix of an array given by a function of its two coordinates is that function. -/
theorem mat_fn {a b : ℕ} (f : Fin a → Fin b → EReal) : mat (fun i : (⟨2, ![a, b]⟩ : Shape).Idx => f (i 0) (i 1)) = f := rfl

variable (m : (ℓ : Loc nD τ sig) → Buf (Elt Ideal) ℓ) (ρ : Dev nD → PrngReg) (c : Dev nD)

/-! ## What each call is entered with -/

/-- The first bias row is the first bias vector along a leading unit axis. -/
theorem row_b1 (k : Fin 64) : (U1 m ρ c main_v0 : S1x64.Idx → EReal) (ix2 0 k) = (m ((c : Thread nD τ).loc main_arg5) : S64.Idx → EReal) (ix1 k) := by
  have e : (U1 m ρ c main_v0 : S1x64.Idx → EReal) = shapeCast S1x64 (m ((c : Thread nD τ).loc main_arg5) : S64.Idx → EReal) shapeCasts_S64_S1x64 := by
    show StableHlo.after hostOps0 (W0 m ρ c) (Proc.devRef .tc main_v0) = _
    after_results; rfl
  rw [e]; exact shapeCast_a_1a_apply _ _ 0 k
theorem row_b2 (k : Fin 32) : (U1 m ρ c main_v1 : S1x32.Idx → EReal) (ix2 0 k) = (m ((c : Thread nD τ).loc main_arg8) : S32.Idx → EReal) (ix1 k) := by
  have e : (U1 m ρ c main_v1 : S1x32.Idx → EReal) = shapeCast S1x32 (m ((c : Thread nD τ).loc main_arg8) : S32.Idx → EReal) shapeCasts_S32_S1x32 := by
    show StableHlo.after hostOps0 (W0 m ρ c) (Proc.devRef .tc main_v1) = _
    after_results; rfl
  rw [e]; exact shapeCast_a_1a_apply _ _ 0 k

/-- An argument array reaches the first call as launched. -/
theorem U1_arg (b : Ref sig .tc) (h0 : b ≠ main_v0) (h1 : b ≠ main_v1) : U1 m ρ c b = m ((c : Thread nD τ).loc b) :=
  (W1_kept m ρ c b h0 h1).trans rfl
theorem U2_arg (b : Ref sig .tc) (h0 : b ≠ main_v0) (h1 : b ≠ main_v1) (h : ∀ w, (cfg0.win w).isOut = true → Pipeline.arrRef spec0 w ≠ b) :
    U2 m ρ c b = m ((c : Thread nD τ).loc b) :=
  (W2_kept m ρ c b h).trans (U1_arg m ρ c b h0 h1)
theorem U3_arg (b : Ref sig .tc) (h0 : b ≠ main_v0) (h1 : b ≠ main_v1) (h : ∀ w, (cfg0.win w).isOut = true → Pipeline.arrRef spec0 w ≠ b)
    (h' : ∀ w, (cfg1.win w).isOut = true → Pipeline.arrRef spec1 w ≠ b) : U3 m ρ c b = m ((c : Thread nD τ).loc b) :=
  (W3_kept m ρ c b h').trans (U2_arg m ρ c b h0 h1 h)

/-- The projected features, as the second call finds them. -/
theorem hw0_eq : U2 m ρ c main_v2_0 = projArr (m ((c : Thread nD τ).loc main_arg0)) (m ((c : Thread nD τ).loc main_arg3)) := by
  have h := (W2_arr m ρ c 3).trans (final0_3 (U1 m ρ) Cert.KernelIdeal.Pay.k0_pay1_apply c)
  rw [U1_arg m ρ c main_arg0 (by decide) (by decide), U1_arg m ρ c main_arg3 (by decide) (by decide)] at h
  exact h
theorem hw1_eq : U2 m ρ c main_v2_1 = projArr (m ((c : Thread nD τ).loc main_arg0)) (m ((c : Thread nD τ).loc main_arg4)) := by
  have h := (W2_arr m ρ c 4).trans (final0_4 (U1 m ρ) Cert.KernelIdeal.Pay.k0_pay2_apply c)
  rw [U1_arg m ρ c main_arg0 (by decide) (by decide), U1_arg m ρ c main_arg4 (by decide) (by decide)] at h
  exact h
theorem b1row_eq : U2 m ρ c main_v0 = U1 m ρ c main_v0 := W2_kept m ρ c main_v0 (by decide)
theorem b2row_eq : U3 m ρ c main_v1 = U1 m ρ c main_v1 := (W3_kept m ρ c main_v1 (by decide)).trans (W2_kept m ρ c main_v1 (by decide))

/-- The projected hidden features, as the third call finds them. -/
theorem g0_eq : U3 m ρ c main_v3_0 = projHidArr (m ((c : Thread nD τ).loc main_arg1)) (m ((c : Thread nD τ).loc main_arg2))
    (projArr (m ((c : Thread nD τ).loc main_arg0)) (m ((c : Thread nD τ).loc main_arg3)))
    (projArr (m ((c : Thread nD τ).loc main_arg0)) (m ((c : Thread nD τ).loc main_arg4)))
    (U1 m ρ c main_v0) (m ((c : Thread nD τ).loc main_arg6)) := by
  have h := (W3_arr m ρ c 7).trans (final1_7 (U2 m ρ) Cert.KernelIdeal.Pay.k1_pay1_apply Cert.KernelIdeal.Pay.k1_pay2_apply c)
  rw [U2_arg m ρ c main_arg1 (by decide) (by decide) (by decide), U2_arg m ρ c main_arg2 (by decide) (by decide) (by decide),
    U2_arg m ρ c main_arg6 (by decide) (by decide) (by decide), hw0_eq, hw1_eq, b1row_eq] at h
  exact h
theorem g1_eq : U3 m ρ c main_v3_1 = projHidArr (m ((c : Thread nD τ).loc main_arg1)) (m ((c : Thread nD τ).loc main_arg2))
    (projArr (m ((c : Thread nD τ).loc main_arg0)) (m ((c : Thread nD τ).loc main_arg3)))
    (projArr (m ((c : Thread nD τ).loc main_arg0)) (m ((c : Thread nD τ).loc main_arg4)))
    (U1 m ρ c main_v0) (m ((c : Thread nD τ).loc main_arg7)) := by
  have h := (W3_arr m ρ c 8).trans (final1_8 (U2 m ρ) Cert.KernelIdeal.Pay.k1_pay1_apply Cert.KernelIdeal.Pay.k1_pay3_apply c)
  rw [U2_arg m ρ c main_arg1 (by decide) (by decide) (by decide), U2_arg m ρ c main_arg2 (by decide) (by decide) (by decide),
    U2_arg m ρ c main_arg7 (by decide) (by decide) (by decide), hw0_eq, hw1_eq, b1row_eq] at h
  exact h

/-! ## The two results -/

/-- The embedding array after the run. -/
theorem embed_value : W5 m ρ c (Proc.devRef .tc main_v4) = fun i =>
    Zp (mat (m ((c : Thread nD τ).loc main_arg0))) (mat (m ((c : Thread nD τ).loc main_arg1))) (mat (m ((c : Thread nD τ).loc main_arg2)))
      (mat (m ((c : Thread nD τ).loc main_arg3))) (mat (m ((c : Thread nD τ).loc main_arg4))) (vec (m ((c : Thread nD τ).loc main_arg5)))
      (mat (m ((c : Thread nD τ).loc main_arg6))) (mat (m ((c : Thread nD τ).loc main_arg7))) (vec (m ((c : Thread nD τ).loc main_arg8))) (i 0) (i 1) := by
  have h := (W5_kept m ρ c main_v4 (by decide)).trans ((W4_arr m ρ c 5).trans (final2_5 (U3 m ρ) Cert.KernelIdeal.Pay.k2_pay1_apply c))
  rw [U3_arg m ρ c main_arg1 (by decide) (by decide) (by decide) (by decide), U3_arg m ρ c main_arg2 (by decide) (by decide) (by decide) (by decide),
    g0_eq, g1_eq, b2row_eq] at h
  exact h.trans (net_eq _ _ _ _ _ _ _ (row_b1 m ρ c) _ _ _ _ (row_b2 m ρ c))

/-- The decoder output array after the run. -/
theorem decode_value : W5 m ρ c (Proc.devRef .tc main_v5) = fun i =>
    dec (Zp (mat (m ((c : Thread nD τ).loc main_arg0))) (mat (m ((c : Thread nD τ).loc main_arg1))) (mat (m ((c : Thread nD τ).loc main_arg2)))
      (mat (m ((c : Thread nD τ).loc main_arg3))) (mat (m ((c : Thread nD τ).loc main_arg4))) (vec (m ((c : Thread nD τ).loc main_arg5)))
      (mat (m ((c : Thread nD τ).loc main_arg6))) (mat (m ((c : Thread nD τ).loc main_arg7))) (vec (m ((c : Thread nD τ).loc main_arg8)))) (i 0) (i 1) := by
  have hz4 : U4 m ρ c main_v4 = _ := (W5_kept m ρ c main_v4 (by decide)).symm.trans (embed_value m ρ c)
  have h := (W5_out m ρ c).trans (final3_2 (U4 m ρ) Cert.KernelIdeal.Pay.k3_pay1_apply c)
  rw [hz4] at h
  exact h.trans rfl

end Cert.KernelIdeal.Hand

end
-- ==== Proof.RefValue.lean ====
/-
  The reference program's two results as functions of its arguments.

  Each stage of the reference is read as a matrix (a rank-2 array at the index built from a row and a
  column), and the stages are chained: a contraction of two arrays is the matrix product of their
  readings, a transposition swaps the two coordinates (so a product against a transposed weight is the
  product `mmT`), the bias is broadcast along the rows, and the rectifier is the maximum with zero.
  The embedding is then `Za` (aggregate over the graph first, then project) and the decoded
  adjacency is `dec Za`.
-/
import proofs.«181728_g36885179138300_cont_8to1_b_1650_11_alg».proof.Proof.Gen.ReferenceIdeal.Read
import proofs.«181728_g36885179138300_cont_8to1_b_1650_11_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-! ## Stages in general -/

/-- A contraction of the left array's second axis against the right array's first axis, read as a
    matrix, is the product of the two readings. -/
theorem mat_dot {a b c : ℕ}
    (L : (⟨2, ![a, b]⟩ : Shape).Idx → EReal) (R : (⟨2, ![b, c]⟩ : Shape).Idx → EReal)
    (V : (⟨2, ![a, c]⟩ : Shape).Idx → EReal)
    (li : (⟨2, ![a, c]⟩ : Shape).Idx → Fin b → (⟨2, ![a, b]⟩ : Shape).Idx)
    (ri : (⟨2, ![a, c]⟩ : Shape).Idx → Fin b → (⟨2, ![b, c]⟩ : Shape).Idx)
    (hV : ∀ i, V i = ∑ k, L (li i k) * R (ri i k))
    (hl : ∀ p q k, li (ix2 p q) k = ix2 p k) (hr : ∀ p q k, ri (ix2 p q) k = ix2 k q) :
    mat V = mm (mat L) (mat R) := by
  funext p q
  show V (ix2 p q) = ∑ k, L (ix2 p k) * R (ix2 k q)
  rw [hV]
  exact Finset.sum_congr rfl fun k _ => by rw [hl, hr]

/-- A transposition, read as a matrix, swaps the row and the column. -/
theorem mat_transpose {a b : ℕ}
    (X : (⟨2, ![a, b]⟩ : Shape).Idx → EReal) (V : (⟨2, ![b, a]⟩ : Shape).Idx → EReal)
    (ti : (⟨2, ![b, a]⟩ : Shape).Idx → (⟨2, ![a, b]⟩ : Shape).Idx)
    (hV : ∀ i, V i = X (ti i)) (ht : ∀ p q, ti (ix2 p q) = ix2 q p) :
    mat V = fun p q => mat X q p := by
  funext p q
  show V (ix2 p q) = X (ix2 q p)
  rw [hV, ht]

/-- The product against a matrix given by its transpose is the product `mmT`. -/
theorem mm_swap {a b c : ℕ} (A : Fin a → Fin b → EReal) (B : Fin c → Fin b → EReal) :
    mm A (fun p q => B q p) = mmT A B := rfl

variable (x0 : (⟨S8192x128, .f32⟩ : BufTy).Contents (Elt Ideal))
  (x1 x2 : (⟨S8192x8192, .f32⟩ : BufTy).Contents (Elt Ideal))
  (x3 x4 : (⟨S64x128, .f32⟩ : BufTy).Contents (Elt Ideal))
  (x5 : (⟨S64, .f32⟩ : BufTy).Contents (Elt Ideal))
  (x6 x7 : (⟨S32x64, .f32⟩ : BufTy).Contents (Elt Ideal))
  (x8 : (⟨S32, .f32⟩ : BufTy).Contents (Elt Ideal))

/-! ## The hidden layer -/

/-- A0·H. -/
theorem mat_v0 : mat (val_main_v0 (F := Ideal) x0 x1) = mm (mat x1) (mat x0) :=
  mat_dot x1 x0 (val_main_v0 (F := Ideal) x0 x1) lidx_main_v0 ridx_main_v0 (val_main_v0_apply x0 x1)
    (fun p q k => funext fun a => Fin.ext (by match a with | ⟨0, _⟩ => rfl | ⟨1, _⟩ => rfl))
    (fun p q k => funext fun a => Fin.ext (by match a with | ⟨0, _⟩ => rfl | ⟨1, _⟩ => rfl))

/-- A1·H. -/
theorem mat_v1 : mat (val_main_v1 (F := Ideal) x0 x2) = mm (mat x2) (mat x0) :=
  mat_dot x2 x0 (val_main_v1 (F := Ideal) x0 x2) lidx_main_v1 ridx_main_v1 (val_main_v1_apply x0 x2)
    (fun p q k => funext fun a => Fin.ext (by match a with | ⟨0, _⟩ => rfl | ⟨1, _⟩ => rfl))
    (fun p q k => funext fun a => Fin.ext (by match a with | ⟨0, _⟩ => rfl | ⟨1, _⟩ => rfl))

/-- W10 transposed. -/
theorem mat_v2 : mat (val_main_v2 (F := Ideal) x3) = fun p q => mat x3 q p :=
  mat_transpose x3 (val_main_v2 (F := Ideal) x3) idx_main_v2 (val_main_v2_apply x3)
    (fun p q => funext fun a => Fin.ext (by match a with | ⟨0, _⟩ => rfl | ⟨1, _⟩ => rfl))

/-- (A0·H)·W10ᵀ. -/
theorem mat_v3 : mat (val_main_v3 (F := Ideal) x0 x1 x3) = mmT (mm (mat x1) (mat x0)) (mat x3) := by
  rw [mat_dot (val_main_v0 (F := Ideal) x0 x1) (val_main_v2 (F := Ideal) x3) (val_main_v3 (F := Ideal) x0 x1 x3)
    lidx_main_v3 ridx_main_v3 (val_main_v3_apply x0 x1 x3)
    (fun p q k => funext fun a => Fin.ext (by match a with | ⟨0, _⟩ => rfl | ⟨1, _⟩ => rfl))
    (fun p q k => funext fun a => Fin.ext (by match a with | ⟨0, _⟩ => rfl | ⟨1, _⟩ => rfl)),
    mat_v0, mat_v2, mm_swap]

/-- W11 transposed. -/
theorem mat_v4 : mat (val_main_v4 (F := Ideal) x4) = fun p q => mat x4 q p :=
  mat_transpose x4 (val_main_v4 (F := Ideal) x4) idx_main_v4 (val_main_v4_apply x4)
    (fun p q => funext fun a => Fin.ext (by match a with | ⟨0, _⟩ => rfl | ⟨1, _⟩ => rfl))

/-- (A1·H)·W11ᵀ. -/
theorem mat_v5 : mat (val_main_v5 (F := Ideal) x0 x2 x4) = mmT (mm (mat x2) (mat x0)) (mat x4) := by
  rw [mat_dot (val_main_v1 (F := Ideal) x0 x2) (val_main_v4 (F := Ideal) x4) (val_main_v5 (F := Ideal) x0 x2 x4)
    lidx_main_v5 ridx_main_v5 (val_main_v5_apply x0 x2 x4)
    (fun p q k => funext fun a => Fin.ext (by match a with | ⟨0, _⟩ => rfl | ⟨1, _⟩ => rfl))
    (fun p q k => funext fun a => Fin.ext (by match a with | ⟨0, _⟩ => rfl | ⟨1, _⟩ => rfl)),
    mat_v1, mat_v4, mm_swap]

/-- The first bias, broadcast along the rows. -/
theorem mat_v8 : mat (val_main_v8 (F := Ideal) x5) = fun _ q => vec x5 q := by
  funext p q
  show val_main_v8 (F := Ideal) x5 (ix2 p q) = x5 (ix1 q)
  rw [val_main_v8_apply, val_main_v7_apply]
  exact congrArg x5 (funext fun a => Fin.ext (by match a with | ⟨0, _⟩ => rfl))

/-- The rectifier's zero. -/
theorem zero_v0 (i : S8192x64.Idx) : val_main_call0_v0 (F := Ideal) i = 0 := by
  rw [val_main_call0_v0_apply, val_main_call0_cst_apply, Ideal.ofBits_def, Ideal.ofBits_zero_f32]

/-- The hidden layer: max(A0·H·W10ᵀ + A1·H·W11ᵀ + b1, 0). -/
theorem mat_v10 : mat (val_main_v10 (F := Ideal) x0 x1 x2 x3 x4 x5)
    = H1a (mat x0) (mat x1) (mat x2) (mat x3) (mat x4) (vec x5) := by
  funext p q
  show val_main_v10 (F := Ideal) x0 x1 x2 x3 x4 x5 (ix2 p q)
    = max ((mmT (mm (mat x1) (mat x0)) (mat x3) p q + mmT (mm (mat x2) (mat x0)) (mat x4) p q) + vec x5 q) 0
  rw [val_main_v10_apply, val_main_v9_apply, val_main_v6_apply, zero_v0, Ideal.maximumf_def, Ideal.addf_def,
    Ideal.addf_def, ← mat_v3, ← mat_v5]
  exact congrArg (fun t => max ((mat (val_main_v3 (F := Ideal) x0 x1 x3) p q + mat (val_main_v5 (F := Ideal) x0 x2 x4) p q) + t) 0)
    (congrFun (congrFun (mat_v8 x5) p) q)

/-! ## The embedding -/

/-- A0·H1. -/
theorem mat_v11 : mat (val_main_v11 (F := Ideal) x0 x1 x2 x3 x4 x5)
    = mm (mat x1) (H1a (mat x0) (mat x1) (mat x2) (mat x3) (mat x4) (vec x5)) := by
  rw [mat_dot x1 (val_main_v10 (F := Ideal) x0 x1 x2 x3 x4 x5) (val_main_v11 (F := Ideal) x0 x1 x2 x3 x4 x5)
    lidx_main_v11 ridx_main_v11 (val_main_v11_apply x0 x1 x2 x3 x4 x5)
    (fun p q k => funext fun a => Fin.ext (by match a with | ⟨0, _⟩ => rfl | ⟨1, _⟩ => rfl))
    (fun p q k => funext fun a => Fin.ext (by match a with | ⟨0, _⟩ => rfl | ⟨1, _⟩ => rfl)),
    mat_v10]

/-- A1·H1. -/
theorem mat_v12 : mat (val_main_v12 (F := Ideal) x0 x1 x2 x3 x4 x5)
    = mm (mat x2) (H1a (mat x0) (mat x1) (mat x2) (mat x3) (mat x4) (vec x5)) := by
  rw [mat_dot x2 (val_main_v10 (F := Ideal) x0 x1 x2 x3 x4 x5) (val_main_v12 (F := Ideal) x0 x1 x2 x3 x4 x5)
    lidx_main_v12 ridx_main_v12 (val_main_v12_apply x0 x1 x2 x3 x4 x5)
    (fun p q k => funext fun a => Fin.ext (by match a with | ⟨0, _⟩ => rfl | ⟨1, _⟩ => rfl))
    (fun p q k => funext fun a => Fin.ext (by match a with | ⟨0, _⟩ => rfl | ⟨1, _⟩ => rfl)),
    mat_v10]

/-- W20 transposed. -/
theorem mat_v13 : mat (val_main_v13 (F := Ideal) x6) = fun p q => mat x6 q p :=
  mat_transpose x6 (val_main_v13 (F := Ideal) x6) idx_main_v13 (val_main_v13_apply x6)
    (fun p q => funext fun a => Fin.ext (by match a with | ⟨0, _⟩ => rfl | ⟨1, _⟩ => rfl))

/-- (A0·H1)·W20ᵀ. -/
theorem mat_v14 : mat (val_main_v14 (F := Ideal) x0 x1 x2 x3 x4 x5 x6)
    = mmT (mm (mat x1) (H1a (mat x0) (mat x1) (mat x2) (mat x3) (mat x4) (vec x5))) (mat x6) := by
  rw [mat_dot (val_main_v11 (F := Ideal) x0 x1 x2 x3 x4 x5) (val_main_v13 (F := Ideal) x6)
    (val_main_v14 (F := Ideal) x0 x1 x2 x3 x4 x5 x6)
    lidx_main_v14 ridx_main_v14 (val_main_v14_apply x0 x1 x2 x3 x4 x5 x6)
    (fun p q k => funext fun a => Fin.ext (by match a with | ⟨0, _⟩ => rfl | ⟨1, _⟩ => rfl))
    (fun p q k => funext fun a => Fin.ext (by match a with | ⟨0, _⟩ => rfl | ⟨1, _⟩ => rfl)),
    mat_v11, mat_v13, mm_swap]

/-- W21 transposed. -/
theorem mat_v15 : mat (val_main_v15 (F := Ideal) x7) = fun p q => mat x7 q p :=
  mat_transpose x7 (val_main_v15 (F := Ideal) x7) idx_main_v15 (val_main_v15_apply x7)
    (fun p q => funext fun a => Fin.ext (by match a with | ⟨0, _⟩ => rfl | ⟨1, _⟩ => rfl))

/-- (A1·H1)·W21ᵀ. -/
theorem mat_v16 : mat (val_main_v16 (F := Ideal) x0 x1 x2 x3 x4 x5 x7)
    = mmT (mm (mat x2) (H1a (mat x0) (mat x1) (mat x2) (mat x3) (mat x4) (vec x5))) (mat x7) := by
  rw [mat_dot (val_main_v12 (F := Ideal) x0 x1 x2 x3 x4 x5) (val_main_v15 (F := Ideal) x7)
    (val_main_v16 (F := Ideal) x0 x1 x2 x3 x4 x5 x7)
    lidx_main_v16 ridx_main_v16 (val_main_v16_apply x0 x1 x2 x3 x4 x5 x7)
    (fun p q k => funext fun a => Fin.ext (by match a with | ⟨0, _⟩ => rfl | ⟨1, _⟩ => rfl))
    (fun p q k => funext fun a => Fin.ext (by match a with | ⟨0, _⟩ => rfl | ⟨1, _⟩ => rfl)),
    mat_v12, mat_v15, mm_swap]

/-- The second bias, broadcast along the rows. -/
theorem mat_v19 : mat (val_main_v19 (F := Ideal) x8) = fun _ q => vec x8 q := by
  funext p q
  show val_main_v19 (F := Ideal) x8 (ix2 p q) = x8 (ix1 q)
  rw [val_main_v19_apply, val_main_v18_apply]
  exact congrArg x8 (funext fun a => Fin.ext (by match a with | ⟨0, _⟩ => rfl))

/-- The embedding: A0·H1·W20ᵀ + A1·H1·W21ᵀ + b2. -/
theorem mat_v20 : mat (val_main_v20 (F := Ideal) x0 x1 x2 x3 x4 x5 x6 x7 x8)
    = Za (mat x0) (mat x1) (mat x2) (mat x3) (mat x4) (vec x5) (mat x6) (mat x7) (vec x8) := by
  funext p q
  show val_main_v20 (F := Ideal) x0 x1 x2 x3 x4 x5 x6 x7 x8 (ix2 p q)
    = (mmT (mm (mat x1) (H1a (mat x0) (mat x1) (mat x2) (mat x3) (mat x4) (vec x5))) (mat x6) p q
        + mmT (mm (mat x2) (H1a (mat x0) (mat x1) (mat x2) (mat x3) (mat x4) (vec x5))) (mat x7) p q) + vec x8 q
  rw [val_main_v20_apply, val_main_v17_apply, Ideal.addf_def, Ideal.addf_def, ← mat_v14, ← mat_v16]
  exact congrArg (fun t => (mat (val_main_v14 (F := Ideal) x0 x1 x2 x3 x4 x5 x6) p q
      + mat (val_main_v16 (F := Ideal) x0 x1 x2 x3 x4 x5 x7) p q) + t)
    (congrFun (congrFun (mat_v19 x8) p) q)

/-- The reference's first result is the embedding `Za`. -/
theorem embed_eq : val_main_v20 (F := Ideal) x0 x1 x2 x3 x4 x5 x6 x7 x8
    = fun i => Za (mat x0) (mat x1) (mat x2) (mat x3) (mat x4) (vec x5) (mat x6) (mat x7) (vec x8) (i 0) (i 1) := by
  funext i
  exact (congrArg (val_main_v20 (F := Ideal) x0 x1 x2 x3 x4 x5 x6 x7 x8) (eq_ix2 i)).trans
    (congrFun (congrFun (mat_v20 x0 x1 x2 x3 x4 x5 x6 x7 x8) (i 0)) (i 1))

/-! ## The decoder -/

/-- The embedding transposed. -/
theorem mat_v21 : mat (val_main_v21 (F := Ideal) x0 x1 x2 x3 x4 x5 x6 x7 x8)
    = fun p q => mat (val_main_v20 (F := Ideal) x0 x1 x2 x3 x4 x5 x6 x7 x8) q p :=
  mat_transpose (val_main_v20 (F := Ideal) x0 x1 x2 x3 x4 x5 x6 x7 x8) (val_main_v21 (F := Ideal) x0 x1 x2 x3 x4 x5 x6 x7 x8)
    idx_main_v21 (val_main_v21_apply x0 x1 x2 x3 x4 x5 x6 x7 x8)
    (fun p q => funext fun a => Fin.ext (by match a with | ⟨0, _⟩ => rfl | ⟨1, _⟩ => rfl))

/-- Z·Zᵀ. -/
theorem mat_v22 : mat (val_main_v22 (F := Ideal) x0 x1 x2 x3 x4 x5 x6 x7 x8)
    = dec (Za (mat x0) (mat x1) (mat x2) (mat x3) (mat x4) (vec x5) (mat x6) (mat x7) (vec x8)) := by
  rw [mat_dot (val_main_v20 (F := Ideal) x0 x1 x2 x3 x4 x5 x6 x7 x8) (val_main_v21 (F := Ideal) x0 x1 x2 x3 x4 x5 x6 x7 x8)
    (val_main_v22 (F := Ideal) x0 x1 x2 x3 x4 x5 x6 x7 x8)
    lidx_main_v22 ridx_main_v22 (val_main_v22_apply x0 x1 x2 x3 x4 x5 x6 x7 x8)
    (fun p q k => funext fun a => Fin.ext (by match a with | ⟨0, _⟩ => rfl | ⟨1, _⟩ => rfl))
    (fun p q k => funext fun a => Fin.ext (by match a with | ⟨0, _⟩ => rfl | ⟨1, _⟩ => rfl)),
    mat_v21, mm_swap, mat_v20]
  rfl

/-- The reference's second result is the decoded adjacency `dec Za`. -/
theorem decode_eq : val_main_v22 (F := Ideal) x0 x1 x2 x3 x4 x5 x6 x7 x8
    = fun i => dec (Za (mat x0) (mat x1) (mat x2) (mat x3) (mat x4) (vec x5) (mat x6) (mat x7) (vec x8)) (i 0) (i 1) := by
  funext i
  exact (congrArg (val_main_v22 (F := Ideal) x0 x1 x2 x3 x4 x5 x6 x7 x8) (eq_ix2 i)).trans
    (congrFun (congrFun (mat_v22 x0 x1 x2 x3 x4 x5 x6 x7 x8) (i 0)) (i 1))

end Cert.ReferenceIdeal.RefValue
end
-- ==== Proof.Algebra.lean ====
/-
  Associativity of the matrix product on real entries, and its consequence for the two-layer
  network: projecting features before aggregating over the graph and aggregating before projecting
  give the same hidden layer and the same embedding.

  The extended reals do not satisfy the distributive law at the infinities, so every statement
  assumes real entries.  Each proof picks real witnesses, does the algebra in ℝ (exchange of the
  order of summation, distributivity, associativity of the product), and carries the result back
  along the inclusion ℝ → EReal, which commutes with products, finite sums and max.
-/
import Mathlib
import proofs.«181728_g36885179138300_cont_8to1_b_1650_11_alg».proof.Proof.Spec

noncomputable section

open scoped BigOperators

namespace Cert.Algebra

open Cert.Spec

/-! ### The inclusion of the reals in the extended reals commutes with finite sums and with max -/

/-- The inclusion ℝ → EReal sends a finite sum of reals to the sum of the images. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The inclusion ℝ → EReal is monotone, so it commutes with the maximum of two reals. -/
theorem coe_max (a b : ℝ) : ((max a b : ℝ) : EReal) = max (a : EReal) (b : EReal) := by
  rcases le_total a b with hab | hab
  · rw [max_eq_right hab, max_eq_right (by exact_mod_cast hab : (a : EReal) ≤ (b : EReal))]
  · rw [max_eq_left hab, max_eq_left (by exact_mod_cast hab : (b : EReal) ≤ (a : EReal))]

/-! ### Real numbers are closed under the operations of the network -/

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The maximum of a real and zero is real. -/
theorem real_max_zero {x : EReal} (hx : ∃ r : ℝ, x = (r : EReal)) :
    ∃ r : ℝ, max x 0 = (r : EReal) := by
  obtain ⟨a, rfl⟩ := hx
  exact ⟨max a 0, by rw [coe_max, EReal.coe_zero]⟩

/-- A finite sum of reals is real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

/-- A matrix all of whose entries are real is the entrywise image of a real matrix. -/
theorem exists_coe₂ {ι κ : Type} {x : ι → κ → EReal} (hx : IsReal₂ x) :
    ∃ r : ι → κ → ℝ, x = fun i j => (r i j : EReal) := by
  have hx' : ∀ i j, ∃ r : ℝ, x i j = (r : EReal) := hx
  choose r hr using hx'
  exact ⟨r, funext fun i => funext fun j => hr i j⟩

/-- The product of two real matrices is real. -/
theorem isReal₂_mm {a b c : ℕ} {A : Fin a → Fin b → EReal} {B : Fin b → Fin c → EReal}
    (hA : IsReal₂ A) (hB : IsReal₂ B) : IsReal₂ (mm A B) := by
  intro i k
  show ∃ r : ℝ, ∑ j, A i j * B j k = (r : EReal)
  exact real_sum _ _ (fun j => real_mul (hA i j) (hB j k))

/-- The product of a real matrix with the transpose of a real matrix is real. -/
theorem isReal₂_mmT {a b c : ℕ} {A : Fin a → Fin b → EReal} {B : Fin c → Fin b → EReal}
    (hA : IsReal₂ A) (hB : IsReal₂ B) : IsReal₂ (mmT A B) := by
  intro i k
  show ∃ r : ℝ, ∑ j, A i j * B k j = (r : EReal)
  exact real_sum _ _ (fun j => real_mul (hA i j) (hB k j))

/-- The entrywise sum of two real matrices is real. -/
theorem isReal₂_add {ι κ : Type} {x y : ι → κ → EReal} (hx : IsReal₂ x) (hy : IsReal₂ y) :
    IsReal₂ (fun i k => x i k + y i k) :=
  fun i k => real_add (hx i k) (hy i k)

/-- Adding a real vector to every row of a real matrix gives a real matrix. -/
theorem isReal₂_add_bias {ι κ : Type} {x : ι → κ → EReal} {b : κ → EReal} (hx : IsReal₂ x)
    (hb : IsReal₁ b) : IsReal₂ (fun i k => x i k + b k) :=
  fun i k => real_add (hx i k) (hb k)

/-- The entrywise maximum of a real matrix with zero is real. -/
theorem isReal₂_max_zero {ι κ : Type} {x : ι → κ → EReal} (hx : IsReal₂ x) :
    IsReal₂ (fun i k => max (x i k) 0) :=
  fun i k => real_max_zero (hx i k)

/-! ### Associativity of the matrix product on real entries -/

/-- For real entries, Σ_j a_j · (Σ_l x_{j l} · w_l) = Σ_l (Σ_j a_j · x_{j l}) · w_l: the product
A·(X·Wᵀ) equals (A·X)·Wᵀ.  Both sides are the images of real sums, and in ℝ the two double sums
differ by the order of summation and the bracketing of each term. -/
theorem mm_mmT_assoc {a b c d : ℕ} {A : Fin a → Fin b → EReal} {X : Fin b → Fin c → EReal}
    {W : Fin d → Fin c → EReal} (hA : IsReal₂ A) (hX : IsReal₂ X) (hW : IsReal₂ W) :
    mm A (mmT X W) = mmT (mm A X) W := by
  obtain ⟨rA, rfl⟩ := exists_coe₂ hA
  obtain ⟨rX, rfl⟩ := exists_coe₂ hX
  obtain ⟨rW, rfl⟩ := exists_coe₂ hW
  funext i k
  have key : (∑ j, rA i j * ∑ l, rX j l * rW k l : ℝ) = ∑ l, (∑ j, rA i j * rX j l) * rW k l := by
    simp only [Finset.mul_sum, Finset.sum_mul]
    rw [Finset.sum_comm]
    exact Finset.sum_congr rfl fun l _ => Finset.sum_congr rfl fun j _ => (mul_assoc _ _ _).symm
  have hL : (∑ j, (rA i j : EReal) * ∑ l, (rX j l : EReal) * (rW k l : EReal))
      = ((∑ j, rA i j * ∑ l, rX j l * rW k l : ℝ) : EReal) := by
    rw [coe_sum]
    refine Finset.sum_congr rfl fun j _ => ?_
    rw [EReal.coe_mul, coe_sum]
    exact congrArg _ (Finset.sum_congr rfl fun l _ => (EReal.coe_mul _ _).symm)
  have hR : (∑ l, (∑ j, (rA i j : EReal) * (rX j l : EReal)) * (rW k l : EReal))
      = ((∑ l, (∑ j, rA i j * rX j l) * rW k l : ℝ) : EReal) := by
    rw [coe_sum]
    refine Finset.sum_congr rfl fun l _ => ?_
    rw [EReal.coe_mul, coe_sum]
    exact congrArg (· * (rW k l : EReal)) (Finset.sum_congr rfl fun j _ => (EReal.coe_mul _ _).symm)
  show (∑ j, (rA i j : EReal) * ∑ l, (rX j l : EReal) * (rW k l : EReal))
      = ∑ l, (∑ j, (rA i j : EReal) * (rX j l : EReal)) * (rW k l : EReal)
  rw [hL, hR, key]

/-! ### The two associations of the network agree -/

section Net

variable {n f h e : ℕ} {H : Fin n → Fin f → EReal} {A0 A1 : Fin n → Fin n → EReal}
  {W10 W11 : Fin h → Fin f → EReal} {b1 : Fin h → EReal} {W20 W21 : Fin e → Fin h → EReal}
  {b2 : Fin e → EReal}

/-- The hidden layer has real entries: it is built from real inputs by products, sums and max. -/
theorem isReal₂_H1p (hH : IsReal₂ H) (hA0 : IsReal₂ A0) (hA1 : IsReal₂ A1) (hW10 : IsReal₂ W10)
    (hW11 : IsReal₂ W11) (hb1 : IsReal₁ b1) : IsReal₂ (H1p H A0 A1 W10 W11 b1) := by
  intro i k
  show ∃ r : ℝ, max ((mm A0 (mmT H W10) i k + mm A1 (mmT H W11) i k) + b1 k) 0 = (r : EReal)
  exact real_max_zero (real_add (real_add (isReal₂_mm hA0 (isReal₂_mmT hH hW10) i k)
    (isReal₂_mm hA1 (isReal₂_mmT hH hW11) i k)) (hb1 k))

/-- Hidden layer: projecting the features and then aggregating over the graph, A_r·(H·W_rᵀ), gives
the same matrix as aggregating and then projecting, (A_r·H)·W_rᵀ, for each edge type r. -/
theorem hidden_eq (hH : IsReal₂ H) (hA0 : IsReal₂ A0) (hA1 : IsReal₂ A1) (hW10 : IsReal₂ W10)
    (hW11 : IsReal₂ W11) (_hb1 : IsReal₁ b1) :
    H1p H A0 A1 W10 W11 b1 = H1a H A0 A1 W10 W11 b1 := by
  unfold H1p H1a
  rw [mm_mmT_assoc hA0 hH hW10, mm_mmT_assoc hA1 hH hW11]

/-- Embedding: with the hidden layers equal and real, the same associativity law applied to the
second layer, A_r·(H1·W2_rᵀ) = (A_r·H1)·W2_rᵀ, identifies the two embeddings. -/
theorem embed_eq (hH : IsReal₂ H) (hA0 : IsReal₂ A0) (hA1 : IsReal₂ A1) (hW10 : IsReal₂ W10)
    (hW11 : IsReal₂ W11) (hb1 : IsReal₁ b1) (hW20 : IsReal₂ W20) (hW21 : IsReal₂ W21)
    (_hb2 : IsReal₁ b2) :
    Zp H A0 A1 W10 W11 b1 W20 W21 b2 = Za H A0 A1 W10 W11 b1 W20 W21 b2 := by
  have hH1 : IsReal₂ (H1p H A0 A1 W10 W11 b1) := isReal₂_H1p hH hA0 hA1 hW10 hW11 hb1
  unfold Zp Za
  rw [← hidden_eq hH hA0 hA1 hW10 hW11 hb1, mm_mmT_assoc hA0 hH1 hW20, mm_mmT_assoc hA1 hH1 hW21]

/-- Every entry of the embedding is a real number. -/
theorem embed_real (hH : IsReal₂ H) (hA0 : IsReal₂ A0) (hA1 : IsReal₂ A1) (hW10 : IsReal₂ W10)
    (hW11 : IsReal₂ W11) (hb1 : IsReal₁ b1) (hW20 : IsReal₂ W20) (hW21 : IsReal₂ W21)
    (hb2 : IsReal₁ b2) : IsReal₂ (Zp H A0 A1 W10 W11 b1 W20 W21 b2) := by
  have hH1 : IsReal₂ (H1p H A0 A1 W10 W11 b1) := isReal₂_H1p hH hA0 hA1 hW10 hW11 hb1
  intro i k
  show ∃ r : ℝ, (mm A0 (mmT (H1p H A0 A1 W10 W11 b1) W20) i k
    + mm A1 (mmT (H1p H A0 A1 W10 W11 b1) W21) i k) + b2 k = (r : EReal)
  exact real_add (real_add (isReal₂_mm hA0 (isReal₂_mmT hH1 hW20) i k)
    (isReal₂_mm hA1 (isReal₂_mmT hH1 hW21) i k)) (hb2 k)

end Net

end Cert.Algebra

end
-- ==== Proof.Finite.lean ====
/-
  Finite inputs are real.

  The precondition compares, for each of the nine input arrays, the absolute value of every entry
  with +∞, takes the conjunction of those comparisons over the whole array, and then the conjunction
  of the nine results.  Over the extended reals the absolute value of x is max x (-x), which is +∞
  exactly at x = ±∞; so the comparison |x| < +∞ holds exactly when x is a real number.  Read back
  entry by entry, the precondition therefore says that every entry of every input is a real.

  Every step is taken at one symbolic index: nothing here ranges over an array's index set.
-/
import proofs.«181728_g36885179138300_cont_8to1_b_1650_11_alg».proof.Pre_finite_inputs
import proofs.«181728_g36885179138300_cont_8to1_b_1650_11_alg».proof.Proof.Spec
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- A rank-0 array has exactly one index. -/
instance : Subsingleton S_.Idx := ⟨fun a b => funext fun d => d.elim0⟩

/-- The single-precision pattern with all exponent bits set and a zero significand denotes +∞. -/
theorem inf_bits : Ideal.ofBits .f32 0x7F800000#32 = (⊤ : EReal) := by
  simp [Ideal.ofBits, Ideal.ieee]

/-- An extended real whose absolute value max x (-x) lies strictly below +∞ is a real number:
    at x = -∞ the second operand is +∞, at x = +∞ the first is. -/
theorem real_of_abs_lt_top (x : EReal) (h : max x (-x) < ⊤) : ∃ r : ℝ, x = (r : EReal) := by
  induction x using EReal.rec with
  | bot => simp at h
  | coe r => exact ⟨r, rfl⟩
  | top => simp at h

/-- One comparison |x| < +∞ of the precondition, read back: it came out true, so x is real. -/
theorem real_of_cmp (x : Ideal .f32)
    (h : FloatOps.cmpf (F := Ideal) .olt (FloatOps.hostAbsf (F := Ideal) x)
      (FloatOps.ofBits (F := Ideal) .f32 0x7F800000#32) = 1#1) : ∃ r : ℝ, x = (r : EReal) := by
  apply real_of_abs_lt_top
  have hb : (FloatOps.ofBits (F := Ideal) .f32 0x7F800000#32 : EReal) = ⊤ := inf_bits
  rw [hb] at h
  change BitVec.ofBool (decide (max x (-x) < (⊤ : EReal))) = 1#1 at h
  by_contra hn
  rw [decide_eq_false hn] at h
  exact absurd h (by decide)

/-- One array's conjunction, read back: the reduction by "and" of the comparisons |x i| < +∞ over
    the whole array came out true, so each comparison did, so each entry is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1)
    (i : s.Idx) : ∃ r : ℝ, x i = (r : EReal) :=
  real_of_cmp (x i) (Host.reduce_andi_all _ _ hr hu ix0 e i)

/-- The precondition, read back: each of the nine input arrays holds only real numbers.

    The function's single result bit is the left-nested conjunction
    ((((((((c0 ∧ c1) ∧ c2) ∧ c3) ∧ c4) ∧ c5) ∧ c6) ∧ c7) ∧ c8) of the nine arrays' bits; it is 1, so
    each c_k is 1, and `real_of_all` turns each into realness of that array's entries. -/
theorem real_of_pre [Cert.Pre_finite_inputs.Facts]
    (x0 : FVec Ideal S8192x128 .f32) (x1 : FVec Ideal S8192x8192 .f32) (x2 : FVec Ideal S8192x8192 .f32)
    (x3 : FVec Ideal S64x128 .f32) (x4 : FVec Ideal S64x128 .f32) (x5 : FVec Ideal S64 .f32)
    (x6 : FVec Ideal S32x64 .f32) (x7 : FVec Ideal S32x64 .f32) (x8 : FVec Ideal S32 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) ∧
    (∀ i, ∃ r : ℝ, x4 i = (r : EReal)) ∧ (∀ i, ∃ r : ℝ, x5 i = (r : EReal)) ∧
    (∀ i, ∃ r : ℝ, x6 i = (r : EReal)) ∧ (∀ i, ∃ r : ℝ, x7 i = (r : EReal)) ∧
    (∀ i, ∃ r : ℝ, x8 i = (r : EReal)) := by
  have h0 := congrFun h ix0
  dsimp only [fn, fn_part1, fn_part2, Idealize.ShloMosaic.andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ e0, real_of_all x1 _ _ _ e1, real_of_all x2 _ _ _ e2,
    real_of_all x3 _ _ _ e3, real_of_all x4 _ _ _ e4, real_of_all x5 _ _ _ e5,
    real_of_all x6 _ _ _ e6, real_of_all x7 _ _ _ e7, real_of_all x8 _ _ _ e8⟩

/-- The same, in the vocabulary of the specification: the seven matrices and the two bias vectors
    the inputs are read as have only real entries.  An entry of `mat x` at (p, q) is `x` at the
    index with those coordinates, and an entry of `vec x` at p is `x` at the index p. -/
theorem isReal_of_pre [Cert.Pre_finite_inputs.Facts]
    (x0 : FVec Ideal S8192x128 .f32) (x1 : FVec Ideal S8192x8192 .f32) (x2 : FVec Ideal S8192x8192 .f32)
    (x3 : FVec Ideal S64x128 .f32) (x4 : FVec Ideal S64x128 .f32) (x5 : FVec Ideal S64 .f32)
    (x6 : FVec Ideal S32x64 .f32) (x7 : FVec Ideal S32x64 .f32) (x8 : FVec Ideal S32 .f32)
    (h : Cert.Pre_finite_inputs.fn (F := Ideal) x0 x1 x2 x3 x4 x5 x6 x7 x8 = fun _ => 1#1) :
    Cert.Spec.IsReal₂ (Cert.Spec.mat x0) ∧ Cert.Spec.IsReal₂ (Cert.Spec.mat x1) ∧
    Cert.Spec.IsReal₂ (Cert.Spec.mat x2) ∧ Cert.Spec.IsReal₂ (Cert.Spec.mat x3) ∧
    Cert.Spec.IsReal₂ (Cert.Spec.mat x4) ∧ Cert.Spec.IsReal₁ (Cert.Spec.vec x5) ∧
    Cert.Spec.IsReal₂ (Cert.Spec.mat x6) ∧ Cert.Spec.IsReal₂ (Cert.Spec.mat x7) ∧
    Cert.Spec.IsReal₁ (Cert.Spec.vec x8) := by
  obtain ⟨r0, r1, r2, r3, r4, r5, r6, r7, r8⟩ := real_of_pre x0 x1 x2 x3 x4 x5 x6 x7 x8 h
  exact ⟨fun p q => r0 (ix2 p q), fun p q => r1 (ix2 p q), fun p q => r2 (ix2 p q),
    fun p q => r3 (ix2 p q), fun p q => r4 (ix2 p q), fun p => r5 (ix1 p),
    fun p q => r6 (ix2 p q), fun p q => r7 (ix2 p q), fun p => r8 (ix1 p)⟩

end Cert.Finite

end
-- ==== Proof.lean ====
/-
  A two-layer relational graph convolution with an inner-product decoder, written as four Pallas
  calls, against its plain jnp reference.

  The kernel projects before it aggregates — HW_r = H·W1_rᵀ, H1 = max(A0·HW0 + A1·HW1 + b1, 0),
  G_r = H1·W2_rᵀ, Z = A0·G0 + A1·G1 + b2, Â = Z·Zᵀ — where the reference aggregates before it
  projects: (A_r·H)·W1_rᵀ and (A_r·H1)·W2_rᵀ.  The two are the same function by associativity of the
  matrix product.  On the extended reals that law needs every entry finite (distributivity fails at
  the infinities), so the proof of the value claim uses the precondition: every input entry is a real
  number, hence so is every intermediate, and the algebra is done over the reals.

  Frames: each Pallas call moves whole blocks, so its body's effect on the staging buffers is one
  function of the input blocks, and the program is a run of five segments (the two bias reshapes and
  the four calls) with the contents of every buffer named at each boundary.  The last call reads the
  embedding through two windows; the buffer's share is dealt in halves to them.  The same text, read
  at the word-level instance and at the exact one, gives both kernel frames.  The reference's frame is
  its run with the results dropped.  The idealization rewrote nothing, so `preserves` is trivial.
-/
import proofs.«181728_g36885179138300_cont_8to1_b_1650_11_alg».proof.Defs
import proofs.«181728_g36885179138300_cont_8to1_b_1650_11_alg».proof.Proof.Gen.Kernel
import proofs.«181728_g36885179138300_cont_8to1_b_1650_11_alg».proof.Proof.Gen.KernelIdeal
import proofs.«181728_g36885179138300_cont_8to1_b_1650_11_alg».proof.Proof.Gen.ReferenceIdeal
import proofs.«181728_g36885179138300_cont_8to1_b_1650_11_alg».proof.Proof.Gen.Pre_finite_inputs
import proofs.«181728_g36885179138300_cont_8to1_b_1650_11_alg».proof.Proof.Gen.ReferenceIdeal.Read
import proofs.«181728_g36885179138300_cont_8to1_b_1650_11_alg».proof.Proof.K.Frame
import proofs.«181728_g36885179138300_cont_8to1_b_1650_11_alg».proof.Proof.KI.Frame
import proofs.«181728_g36885179138300_cont_8to1_b_1650_11_alg».proof.Proof.KI.Value
import proofs.«181728_g36885179138300_cont_8to1_b_1650_11_alg».proof.Proof.RefValue
import proofs.«181728_g36885179138300_cont_8to1_b_1650_11_alg».proof.Proof.Algebra
import proofs.«181728_g36885179138300_cont_8to1_b_1650_11_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
/-- The reference is host operations only: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal Cert.KernelIdeal.Hand in
/-- Both programs end with the embedding `Z` and the decoder output `Z·Zᵀ` of the same real matrices: the kernel's
    "project first" form is the reference's "aggregate first" form when every input entry is finite. -/
theorem algebraic : Cert.algebraic_KernelIdeal_ReferenceIdeal := by
  intro m ρ m' ρ' hpre hagree
  refine ⟨fun c => U5 m ρ c main_v4, fun c => U5 m ρ c main_v5, ?_, ?_⟩
  · exact (θ_run Cert.KernelIdeal.defs _ _).mono (fun r h c =>
      ⟨h c _ (mem_uc main_v4 (by decide)), h c _ (mem_uc main_v5 (by decide)),
        (h c _ (mem_uc main_arg0 (by decide))).trans (W5_launch m ρ c main_arg0 (by decide)),
        (h c _ (mem_uc main_arg1 (by decide))).trans (W5_launch m ρ c main_arg1 (by decide)),
        (h c _ (mem_uc main_arg2 (by decide))).trans (W5_launch m ρ c main_arg2 (by decide)),
        (h c _ (mem_uc main_arg3 (by decide))).trans (W5_launch m ρ c main_arg3 (by decide)),
        (h c _ (mem_uc main_arg4 (by decide))).trans (W5_launch m ρ c main_arg4 (by decide)),
        (h c _ (mem_uc main_arg5 (by decide))).trans (W5_launch m ρ c main_arg5 (by decide)),
        (h c _ (mem_uc main_arg6 (by decide))).trans (W5_launch m ρ c main_arg6 (by decide)),
        (h c _ (mem_uc main_arg7 (by decide))).trans (W5_launch m ρ c main_arg7 (by decide)),
        (h c _ (mem_uc main_arg8 (by decide))).trans (W5_launch m ρ c main_arg8 (by decide))⟩)
      (Cert.KernelIdeal.Hand.run m ρ)
  · refine (θ_run Cert.ReferenceIdeal.defs _ _).mono (fun r h c => ⟨?_, ?_, (h c).2.2⟩)
      (Cert.ReferenceIdeal.Value.run (F := Ideal) m' ρ')
    · obtain ⟨r0, r1, r2, r3, r4, r5, r6, r7, r8⟩ := Cert.Finite.isReal_of_pre _ _ _ _ _ _ _ _ _ (hpre c)
      have hz := Cert.Algebra.embed_eq r0 r1 r2 r3 r4 r5 r6 r7 r8
      refine ((h c).1.trans (Cert.ReferenceIdeal.Read.val_main_v20_eq _ _ _ _ _ _ _ _ _)).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2,
        Cert.ReferenceIdeal.RefValue.embed_eq, ← hz]
      exact (embed_value m ρ c).symm
    · obtain ⟨r0, r1, r2, r3, r4, r5, r6, r7, r8⟩ := Cert.Finite.isReal_of_pre _ _ _ _ _ _ _ _ _ (hpre c)
      have hz := Cert.Algebra.embed_eq r0 r1 r2 r3 r4 r5 r6 r7 r8
      refine ((h c).2.1.trans (Cert.ReferenceIdeal.Read.val_main_v22_eq m' c)).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2,
        Cert.ReferenceIdeal.RefValue.decode_eq, ← hz]
      exact (decode_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
